-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S4096x2048 : Shape := ⟨2, ![4096, 2048]⟩
abbrev S4096 : Shape := ⟨1, ![4096]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S2048x1024 .f32) (main_arg1 : FVec F S2048x1024 .f32) (main_arg2 : FVec F S2048x1024 .f32) (main_arg3 : FVec F S4096x2048 .f32) (main_arg4 : FVec F S4096 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_v13 main_v16
-- ==== Kernel.lean ====
abbrev S2048x1024 : Shape := ⟨2, ![2048, 1024]⟩
abbrev S4096x2048 : Shape := ⟨2, ![4096, 2048]⟩
abbrev S4096 : Shape := ⟨1, ![4096]⟩
abbrev S2048x2048 : Shape := ⟨2, ![2048, 2048]⟩
abbrev S_ : Shape := ⟨0, ![]⟩
abbrev S512x256 : Shape := ⟨2, ![512, 256]⟩
abbrev S4096x256 : Shape := ⟨2, ![4096, 256]⟩
abbrev S512x1024 : Shape := ⟨2, ![512, 1024]⟩
abbrev S512x4096 : Shape := ⟨2, ![512, 4096]⟩
abbrev S256 : Shape := ⟨1, ![256]⟩
abbrev S1x256 : Shape := ⟨2, ![1, 256]⟩

abbrev nBuf : Space → Nat
  | .hbm => 40
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S4096x2048, .f32⟩
  | .hbm, ⟨4, _⟩ => ⟨S4096, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x2048, .bf16⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S4096x2048, .bf16⟩
  | .hbm, ⟨38, _⟩ => ⟨S2048x1024, .f32⟩
  | .hbm, ⟨39, _⟩ => ⟨S2048x1024, .f32⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x4096, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_cst_1 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_4 : Ref sig .tc := ⟨.hbm, 26, rfl⟩
abbrev main_cst_5 : Ref sig .tc := ⟨.hbm, 27, rfl⟩
abbrev main_call3_v0 : Ref sig .tc := ⟨.hbm, 28, rfl⟩
abbrev main_call3_v1 : Ref sig .tc := ⟨.hbm, 29, rfl⟩
abbrev main_call3_v2 : Ref sig .tc := ⟨.hbm, 30, rfl⟩
abbrev main_call3_v3 : Ref sig .tc := ⟨.hbm, 31, rfl⟩
abbrev main_call3_v4 : Ref sig .tc := ⟨.hbm, 32, rfl⟩
abbrev main_v11 : Ref sig .tc := ⟨.hbm, 33, rfl⟩
abbrev main_cst_6 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15_0 : Ref sig .tc := ⟨.hbm, 38, rfl⟩
abbrev main_v15_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  concatenates_S2048x1024_S2048x1024_S2048x2048_d1 : Shape.Concatenates [S2048x1024, S2048x1024] S2048x2048 1
  bcast_S_S2048x2048 : S_.BroadcastsInDim S2048x2048 (![] : Fin 0 → Fin S2048x2048.rank)
  bitsLt_bf16_f32 : FTy.bits .bf16 < FTy.bits .f32
  bcast_S_S4096x2048 : S_.BroadcastsInDim S4096x2048 (![] : Fin 0 → Fin S4096x2048.rank)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S4096_S4096_0 : ∀ a, (![0] : Fin 1 → Nat) a + S4096.size a ≤ S4096.size a
  h_S4096 : 0 < S4096.numel
  inb_S512x4096_S512x256_0_0 : ∀ a, (![0, 0] : Fin 2 → Nat) a + S512x256.size a ≤ S512x4096.size a
  slices_S4096_o0_S256 : S4096.Slices ![0] S256
  shapeCasts_S256_S1x256 : S256.ShapeCasts S1x256
  broadcasts_S1x256_S512x256 : S1x256.Broadcasts S512x256
  inb_S512x4096_S512x256_0_1024 : ∀ a, (![0, 1024] : Fin 2 → Nat) a + S512x256.size a ≤ S512x4096.size a
  slices_S4096_o1024_S256 : S4096.Slices ![1024] S256
  inb_S512x4096_S512x256_0_2048 : ∀ a, (![0, 2048] : Fin 2 → Nat) a + S512x256.size a ≤ S512x4096.size a
  slices_S4096_o2048_S256 : S4096.Slices ![2048] S256
  inb_S512x4096_S512x256_0_3072 : ∀ a, (![0, 3072] : Fin 2 → Nat) a + S512x256.size a ≤ S512x4096.size a
  slices_S4096_o3072_S256 : S4096.Slices ![3072] S256
  inb_S512x1024_S512x256_0_0 : ∀ a, (![0, 0] : Fin 2 → Nat) a + S512x256.size a ≤ S512x1024.size a
  inb_S512x4096_S512x256_0_256 : ∀ a, (![0, 256] : Fin 2 → Nat) a + S512x256.size a ≤ S512x4096.size a
  slices_S4096_o256_S256 : S4096.Slices ![256] S256
  inb_S512x4096_S512x256_0_1280 : ∀ a, (![0, 1280] : Fin 2 → Nat) a + S512x256.size a ≤ S512x4096.size a
  slices_S4096_o1280_S256 : S4096.Slices ![1280] S256
  inb_S512x4096_S512x256_0_2304 : ∀ a, (![0, 2304] : Fin 2 → Nat) a + S512x256.size a ≤ S512x4096.size a
  slices_S4096_o2304_S256 : S4096.Slices ![2304] S256
  inb_S512x4096_S512x256_0_3328 : ∀ a, (![0, 3328] : Fin 2 → Nat) a + S512x256.size a ≤ S512x4096.size a
  slices_S4096_o3328_S256 : S4096.Slices ![3328] S256
  inb_S512x1024_S512x256_0_256 : ∀ a, (![0, 256] : Fin 2 → Nat) a + S512x256.size a ≤ S512x1024.size a
  inb_S512x4096_S512x256_0_512 : ∀ a, (![0, 512] : Fin 2 → Nat) a + S512x256.size a ≤ S512x4096.size a
  slices_S4096_o512_S256 : S4096.Slices ![512] S256
  inb_S512x4096_S512x256_0_1536 : ∀ a, (![0, 1536] : Fin 2 → Nat) a + S512x256.size a ≤ S512x4096.size a
  slices_S4096_o1536_S256 : S4096.Slices ![1536] S256
  inb_S512x4096_S512x256_0_2560 : ∀ a, (![0, 2560] : Fin 2 → Nat) a + S512x256.size a ≤ S512x4096.size a
  slices_S4096_o2560_S256 : S4096.Slices ![2560] S256
  inb_S512x4096_S512x256_0_3584 : ∀ a, (![0, 3584] : Fin 2 → Nat) a + S512x256.size a ≤ S512x4096.size a
  slices_S4096_o3584_S256 : S4096.Slices ![3584] S256
  inb_S512x1024_S512x256_0_512 : ∀ a, (![0, 512] : Fin 2 → Nat) a + S512x256.size a ≤ S512x1024.size a
  inb_S512x4096_S512x256_0_768 : ∀ a, (![0, 768] : Fin 2 → Nat) a + S512x256.size a ≤ S512x4096.size a
  slices_S4096_o768_S256 : S4096.Slices ![768] S256
  inb_S512x4096_S512x256_0_1792 : ∀ a, (![0, 1792] : Fin 2 → Nat) a + S512x256.size a ≤ S512x4096.size a
  slices_S4096_o1792_S256 : S4096.Slices ![1792] S256
  inb_S512x4096_S512x256_0_2816 : ∀ a, (![0, 2816] : Fin 2 → Nat) a + S512x256.size a ≤ S512x4096.size a
  slices_S4096_o2816_S256 : S4096.Slices ![2816] S256
  inb_S512x4096_S512x256_0_3840 : ∀ a, (![0, 3840] : Fin 2 → Nat) a + S512x256.size a ≤ S512x4096.size a
  slices_S4096_o3840_S256 : S4096.Slices ![3840] S256
  inb_S512x1024_S512x256_0_768 : ∀ a, (![0, 768] : Fin 2 → Nat) a + S512x256.size a ≤ S512x1024.size a
  dot_S512x256_S4096x256_S512x4096_1_1_0_0_n_n_wf : DotDims.WF S512x256 S4096x256 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S2048x2048.size a
  hwx0_0 : ∀ i : grid0.Coords, EltTy.bits .bf16 = 32 ∨ (Rect.block (s := S2048x2048) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x2048.size a
  hwx0_1 : ∀ i : grid0.Coords, EltTy.bits .bf16 = 32 ∨ (Rect.block (s := S4096x2048) S4096x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S4096.size a
  hwx0_2 : ∀ i : grid0.Coords, EltTy.bits .f32 = 32 ∨ (Rect.block (s := S4096) S4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S2048x1024.size a
  hwx0_3 : ∀ i : grid0.Coords, EltTy.bits .f32 = 32 ∨ (Rect.block (s := S2048x1024) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S2048x1024.size a
  hwx0_4 : ∀ i : grid0.Coords, EltTy.bits .f32 = 32 ∨ (Rect.block (s := S2048x1024) S512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S2048x1024.size a
  hwx0_5 : ∀ i : grid0.Coords, EltTy.bits .f32 = 32 ∨ (Rect.block (s := S2048x1024) S512x1024.size (cc0_transform_5 i) (hinb0_5 i)).WholeWords (EltTy.packing .f32)

variable [Facts₀]

def dot_S512x256_S4096x256_S512x4096_1_1_0_0_n_n : DotDims S512x256 S4096x256 S512x4096 where
  lhsContracting := [1]
  rhsContracting := [1]
  lhsNonContracting := [0]
  rhsNonContracting := [0]
  lhsBatch := []
  rhsBatch := []
  wf := dot_S512x256_S4096x256_S512x4096_1_1_0_0_n_n_wf

abbrev win0_0 : Pipeline.Window sig grid0 :=
  Pipeline.Window.ofSpec (Memref.whole main_v7) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15_1) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2048x1024 : Shape := ⟨2, ![2048, 1024]⟩
abbrev S4096x2048 : Shape := ⟨2, ![4096, 2048]⟩
abbrev S4096 : Shape := ⟨1, ![4096]⟩
abbrev S2048x2048 : Shape := ⟨2, ![2048, 2048]⟩
abbrev S_ : Shape := ⟨0, ![]⟩
abbrev S2048x4096 : Shape := ⟨2, ![2048, 4096]⟩
abbrev S1x4096 : Shape := ⟨2, ![1, 4096]⟩

abbrev nBuf : Space → Nat
  | .hbm => 180
  | .vmem => 0
  | .smem => 0
  | _ => 0

abbrev hbmTy0_0 (i : Nat) : BufTy := match i % 128 with
  | 0 => ⟨S2048x1024, .f32⟩
  | 1 => ⟨S2048x1024, .f32⟩
  | 2 => ⟨S2048x1024, .f32⟩
  | 3 => ⟨S4096x2048, .f32⟩
  | 4 => ⟨S4096, .f32⟩
  | 5 => ⟨S2048x2048, .f32⟩
  | 6 => ⟨S_, .f32⟩
  | 7 => ⟨S2048x2048, .f32⟩
  | 8 => ⟨S2048x2048, .f32⟩
  | 9 => ⟨S2048x2048, .f32⟩
  | 10 => ⟨S_, .f32⟩
  | 11 => ⟨S_, .f32⟩
  | 12 => ⟨S_, .f32⟩
  | 13 => ⟨S2048x2048, .f32⟩
  | 14 => ⟨S2048x2048, .f32⟩
  | 15 => ⟨S_, .f32⟩
  | 16 => ⟨S2048x2048, .f32⟩
  | 17 => ⟨S2048x2048, .f32⟩
  | 18 => ⟨S_, .f32⟩
  | 19 => ⟨S2048x2048, .f32⟩
  | 20 => ⟨S2048x2048, .f32⟩
  | 21 => ⟨S_, .f32⟩
  | 22 => ⟨S4096x2048, .f32⟩
  | 23 => ⟨S4096x2048, .f32⟩
  | 24 => ⟨S4096x2048, .f32⟩
  | 25 => ⟨S_, .f32⟩
  | 26 => ⟨S_, .f32⟩
  | 27 => ⟨S_, .f32⟩
  | 28 => ⟨S4096x2048, .f32⟩
  | 29 => ⟨S4096x2048, .f32⟩
  | 30 => ⟨S_, .f32⟩
  | 31 => ⟨S4096x2048, .f32⟩
  | 32 => ⟨S4096x2048, .f32⟩
  | 33 => ⟨S_, .f32⟩
  | 34 => ⟨S4096x2048, .f32⟩
  | 35 => ⟨S4096x2048, .f32⟩
  | 36 => ⟨S_, .f32⟩
  | 37 => ⟨S4096, .f32⟩
  | 38 => ⟨S4096, .f32⟩
  | 39 => ⟨S4096, .f32⟩
  | 40 => ⟨S_, .f32⟩
  | 41 => ⟨S_, .f32⟩
  | 42 => ⟨S_, .f32⟩
  | 43 => ⟨S4096, .f32⟩
  | 44 => ⟨S4096, .f32⟩
  | 45 => ⟨S_, .f32⟩
  | 46 => ⟨S4096, .f32⟩
  | 47 => ⟨S4096, .f32⟩
  | 48 => ⟨S_, .f32⟩
  | 49 => ⟨S4096, .f32⟩
  | 50 => ⟨S4096, .f32⟩
  | 51 => ⟨S2048x4096, .f32⟩
  | 52 => ⟨S2048x4096, .f32⟩
  | 53 => ⟨S1x4096, .f32⟩
  | 54 => ⟨S2048x4096, .f32⟩
  | 55 => ⟨S2048x4096, .f32⟩
  | 56 => ⟨S2048x1024, .f32⟩
  | 57 => ⟨S2048x1024, .f32⟩
  | 58 => ⟨S2048x1024, .f32⟩
  | 59 => ⟨S2048x1024, .f32⟩
  | 60 => ⟨S2048x1024, .f32⟩
  | 61 => ⟨S2048x1024, .f32⟩
  | 62 => ⟨S_, .f32⟩
  | 63 => ⟨S2048x1024, .f32⟩
  | 64 => ⟨S2048x1024, .f32⟩
  | 65 => ⟨S_, .f32⟩
  | 66 => ⟨S2048x1024, .f32⟩
  | 67 => ⟨S2048x1024, .f32⟩
  | 68 => ⟨S_, .f32⟩
  | 69 => ⟨S2048x1024, .f32⟩
  | 70 => ⟨S2048x1024, .f32⟩
  | 71 => ⟨S2048x1024, .f32⟩
  | 72 => ⟨S_, .f32⟩
  | 73 => ⟨S_, .f32⟩
  | 74 => ⟨S_, .f32⟩
  | 75 => ⟨S2048x1024, .f32⟩
  | 76 => ⟨S2048x1024, .f32⟩
  | 77 => ⟨S_, .f32⟩
  | 78 => ⟨S2048x1024, .f32⟩
  | 79 => ⟨S2048x1024, .f32⟩
  | 80 => ⟨S_, .f32⟩
  | 81 => ⟨S2048x1024, .f32⟩
  | 82 => ⟨S2048x1024, .f32⟩
  | 83 => ⟨S2048x1024, .f32⟩
  | 84 => ⟨S2048x1024, .f32⟩
  | 85 => ⟨S_, .f32⟩
  | 86 => ⟨S2048x1024, .f32⟩
  | 87 => ⟨S2048x1024, .f32⟩
  | 88 => ⟨S_, .f32⟩
  | 89 => ⟨S2048x1024, .f32⟩
  | 90 => ⟨S2048x1024, .f32⟩
  | 91 => ⟨S_, .f32⟩
  | 92 => ⟨S2048x1024, .f32⟩
  | 93 => ⟨S2048x1024, .f32⟩
  | 94 => ⟨S2048x1024, .f32⟩
  | 95 => ⟨S_, .f32⟩
  | 96 => ⟨S_, .f32⟩
  | 97 => ⟨S_, .f32⟩
  | 98 => ⟨S2048x1024, .f32⟩
  | 99 => ⟨S2048x1024, .f32⟩
  | 100 => ⟨S_, .f32⟩
  | 101 => ⟨S2048x1024, .f32⟩
  | 102 => ⟨S2048x1024, .f32⟩
  | 103 => ⟨S_, .f32⟩
  | 104 => ⟨S2048x1024, .f32⟩
  | 105 => ⟨S2048x1024, .f32⟩
  | 106 => ⟨S2048x1024, .f32⟩
  | 107 => ⟨S_, .f32⟩
  | 108 => ⟨S2048x1024, .f32⟩
  | 109 => ⟨S2048x1024, .f32⟩
  | 110 => ⟨S2048x1024, .f32⟩
  | 111 => ⟨S_, .f32⟩
  | 112 => ⟨S_, .f32⟩
  | 113 => ⟨S_, .f32⟩
  | 114 => ⟨S2048x1024, .f32⟩
  | 115 => ⟨S2048x1024, .f32⟩
  | 116 => ⟨S_, .f32⟩
  | 117 => ⟨S2048x1024, .f32⟩
  | 118 => ⟨S2048x1024, .f32⟩
  | 119 => ⟨S_, .f32⟩
  | 120 => ⟨S2048x1024, .f32⟩
  | 121 => ⟨S2048x1024, .f32⟩
  | 122 => ⟨S2048x1024, .f32⟩
  | 123 => ⟨S2048x1024, .f32⟩
  | 124 => ⟨S_, .f32⟩
  | 125 => ⟨S2048x1024, .f32⟩
  | 126 => ⟨S2048x1024, .f32⟩
  | 127 => ⟨S_, .f32⟩
  | _ => ⟨S2048x1024, .f32⟩

abbrev hbmTy0_1 (i : Nat) : BufTy := match i % 128 with
  | 0 => ⟨S2048x1024, .f32⟩
  | 1 => ⟨S2048x1024, .f32⟩
  | 2 => ⟨S_, .f32⟩
  | 3 => ⟨S2048x1024, .f32⟩
  | 4 => ⟨S2048x1024, .f32⟩
  | 5 => ⟨S2048x1024, .f32⟩
  | 6 => ⟨S_, .f32⟩
  | 7 => ⟨S_, .f32⟩
  | 8 => ⟨S_, .f32⟩
  | 9 => ⟨S2048x1024, .f32⟩
  | 10 => ⟨S2048x1024, .f32⟩
  | 11 => ⟨S_, .f32⟩
  | 12 => ⟨S2048x1024, .f32⟩
  | 13 => ⟨S2048x1024, .f32⟩
  | 14 => ⟨S_, .f32⟩
  | 15 => ⟨S2048x1024, .f32⟩
  | 16 => ⟨S2048x1024, .f32⟩
  | 17 => ⟨S_, .f32⟩
  | 18 => ⟨S2048x1024, .f32⟩
  | 19 => ⟨S2048x1024, .f32⟩
  | 20 => ⟨S2048x1024, .f32⟩
  | 21 => ⟨S_, .f32⟩
  | 22 => ⟨S_, .f32⟩
  | 23 => ⟨S_, .f32⟩
  | 24 => ⟨S2048x1024, .f32⟩
  | 25 => ⟨S2048x1024, .f32⟩
  | 26 => ⟨S_, .f32⟩
  | 27 => ⟨S2048x1024, .f32⟩
  | 28 => ⟨S2048x1024, .f32⟩
  | 29 => ⟨S_, .f32⟩
  | 30 => ⟨S2048x1024, .f32⟩
  | 31 => ⟨S2048x1024, .f32⟩
  | 32 => ⟨S2048x1024, .f32⟩
  | 33 => ⟨S2048x1024, .f32⟩
  | 34 => ⟨S2048x1024, .f32⟩
  | 35 => ⟨S2048x1024, .f32⟩
  | 36 => ⟨S_, .f32⟩
  | 37 => ⟨S2048x1024, .f32⟩
  | 38 => ⟨S2048x1024, .f32⟩
  | 39 => ⟨S2048x1024, .f32⟩
  | 40 => ⟨S_, .f32⟩
  | 41 => ⟨S_, .f32⟩
  | 42 => ⟨S_, .f32⟩
  | 43 => ⟨S2048x1024, .f32⟩
  | 44 => ⟨S2048x1024, .f32⟩
  | 45 => ⟨S_, .f32⟩
  | 46 => ⟨S2048x1024, .f32⟩
  | 47 => ⟨S2048x1024, .f32⟩
  | 48 => ⟨S_, .f32⟩
  | 49 => ⟨S2048x1024, .f32⟩
  | 50 => ⟨S2048x1024, .f32⟩
  | 51 => ⟨S2048x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_cst_1 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_cst_3 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_4 : Ref sig .tc := ⟨.hbm, 25, rfl⟩
abbrev main_cst_5 : Ref sig .tc := ⟨.hbm, 26, rfl⟩
abbrev main_call3_v0 : Ref sig .tc := ⟨.hbm, 27, rfl⟩
abbrev main_call3_v1 : Ref sig .tc := ⟨.hbm, 28, rfl⟩
abbrev main_call3_v2 : Ref sig .tc := ⟨.hbm, 29, rfl⟩
abbrev main_call3_v3 : Ref sig .tc := ⟨.hbm, 30, rfl⟩
abbrev main_call3_v4 : Ref sig .tc := ⟨.hbm, 31, rfl⟩
abbrev main_v10 : Ref sig .tc := ⟨.hbm, 32, rfl⟩
abbrev main_cst_6 : Ref sig .tc := ⟨.hbm, 33, rfl⟩
abbrev main_v11 : Ref sig .tc := ⟨.hbm, 34, rfl⟩
abbrev main_v12 : Ref sig .tc := ⟨.hbm, 35, rfl⟩
abbrev main_cst_7 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_8 : Ref sig .tc := ⟨.hbm, 40, rfl⟩
abbrev main_cst_9 : Ref sig .tc := ⟨.hbm, 41, rfl⟩
abbrev main_call5_v0 : Ref sig .tc := ⟨.hbm, 42, rfl⟩
abbrev main_call5_v1 : Ref sig .tc := ⟨.hbm, 43, rfl⟩
abbrev main_call5_v2 : Ref sig .tc := ⟨.hbm, 44, rfl⟩
abbrev main_call5_v3 : Ref sig .tc := ⟨.hbm, 45, rfl⟩
abbrev main_call5_v4 : Ref sig .tc := ⟨.hbm, 46, rfl⟩
abbrev main_v16 : Ref sig .tc := ⟨.hbm, 47, rfl⟩
abbrev main_cst_10 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_11 : Ref sig .tc := ⟨.hbm, 62, rfl⟩
abbrev main_v30 : Ref sig .tc := ⟨.hbm, 63, rfl⟩
abbrev main_v31 : Ref sig .tc := ⟨.hbm, 64, rfl⟩
abbrev main_cst_12 : Ref sig .tc := ⟨.hbm, 65, rfl⟩
abbrev main_v32 : Ref sig .tc := ⟨.hbm, 66, rfl⟩
abbrev main_v33 : Ref sig .tc := ⟨.hbm, 67, rfl⟩
abbrev main_cst_13 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_cst_14 : Ref sig .tc := ⟨.hbm, 72, rfl⟩
abbrev main_cst_15 : Ref sig .tc := ⟨.hbm, 73, rfl⟩
abbrev main_call7_v0 : Ref sig .tc := ⟨.hbm, 74, rfl⟩
abbrev main_call7_v1 : Ref sig .tc := ⟨.hbm, 75, rfl⟩
abbrev main_call7_v2 : Ref sig .tc := ⟨.hbm, 76, rfl⟩
abbrev main_call7_v3 : Ref sig .tc := ⟨.hbm, 77, rfl⟩
abbrev main_call7_v4 : Ref sig .tc := ⟨.hbm, 78, rfl⟩
abbrev main_v37 : Ref sig .tc := ⟨.hbm, 79, rfl⟩
abbrev main_cst_16 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_cst_17 : Ref sig .tc := ⟨.hbm, 85, rfl⟩
abbrev main_v42 : Ref sig .tc := ⟨.hbm, 86, rfl⟩
abbrev main_v43 : Ref sig .tc := ⟨.hbm, 87, rfl⟩
abbrev main_cst_18 : Ref sig .tc := ⟨.hbm, 88, rfl⟩
abbrev main_v44 : Ref sig .tc := ⟨.hbm, 89, rfl⟩
abbrev main_v45 : Ref sig .tc := ⟨.hbm, 90, rfl⟩
abbrev main_cst_19 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_cst_20 : Ref sig .tc := ⟨.hbm, 95, rfl⟩
abbrev main_cst_21 : Ref sig .tc := ⟨.hbm, 96, rfl⟩
abbrev main_call9_v0 : Ref sig .tc := ⟨.hbm, 97, rfl⟩
abbrev main_call9_v1 : Ref sig .tc := ⟨.hbm, 98, rfl⟩
abbrev main_call9_v2 : Ref sig .tc := ⟨.hbm, 99, rfl⟩
abbrev main_call9_v3 : Ref sig .tc := ⟨.hbm, 100, rfl⟩
abbrev main_call9_v4 : Ref sig .tc := ⟨.hbm, 101, rfl⟩
abbrev main_v49 : Ref sig .tc := ⟨.hbm, 102, rfl⟩
abbrev main_cst_22 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_cst_23 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_cst_24 : Ref sig .tc := ⟨.hbm, 111, rfl⟩
abbrev main_cst_25 : Ref sig .tc := ⟨.hbm, 112, rfl⟩
abbrev main_call11_v0 : Ref sig .tc := ⟨.hbm, 113, rfl⟩
abbrev main_call11_v1 : Ref sig .tc := ⟨.hbm, 114, rfl⟩
abbrev main_call11_v2 : Ref sig .tc := ⟨.hbm, 115, rfl⟩
abbrev main_call11_v3 : Ref sig .tc := ⟨.hbm, 116, rfl⟩
abbrev main_call11_v4 : Ref sig .tc := ⟨.hbm, 117, rfl⟩
abbrev main_v56 : Ref sig .tc := ⟨.hbm, 118, rfl⟩
abbrev main_cst_26 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_cst_27 : Ref sig .tc := ⟨.hbm, 124, rfl⟩
abbrev main_v61 : Ref sig .tc := ⟨.hbm, 125, rfl⟩
abbrev main_v62 : Ref sig .tc := ⟨.hbm, 126, rfl⟩
abbrev main_cst_28 : Ref sig .tc := ⟨.hbm, 127, rfl⟩
abbrev main_v63 : Ref sig .tc := ⟨.hbm, 128, rfl⟩
abbrev main_v64 : Ref sig .tc := ⟨.hbm, 129, rfl⟩
abbrev main_cst_29 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_cst_30 : Ref sig .tc := ⟨.hbm, 134, rfl⟩
abbrev main_cst_31 : Ref sig .tc := ⟨.hbm, 135, rfl⟩
abbrev main_call13_v0 : Ref sig .tc := ⟨.hbm, 136, rfl⟩
abbrev main_call13_v1 : Ref sig .tc := ⟨.hbm, 137, rfl⟩
abbrev main_call13_v2 : Ref sig .tc := ⟨.hbm, 138, rfl⟩
abbrev main_call13_v3 : Ref sig .tc := ⟨.hbm, 139, rfl⟩
abbrev main_call13_v4 : Ref sig .tc := ⟨.hbm, 140, rfl⟩
abbrev main_v68 : Ref sig .tc := ⟨.hbm, 141, rfl⟩
abbrev main_cst_32 : Ref sig .tc := ⟨.hbm, 142, rfl⟩
abbrev main_v69 : Ref sig .tc := ⟨.hbm, 143, rfl⟩
abbrev main_v70 : Ref sig .tc := ⟨.hbm, 144, rfl⟩
abbrev main_cst_33 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_cst_34 : Ref sig .tc := ⟨.hbm, 149, rfl⟩
abbrev main_cst_35 : Ref sig .tc := ⟨.hbm, 150, rfl⟩
abbrev main_call15_v0 : Ref sig .tc := ⟨.hbm, 151, rfl⟩
abbrev main_call15_v1 : Ref sig .tc := ⟨.hbm, 152, rfl⟩
abbrev main_call15_v2 : Ref sig .tc := ⟨.hbm, 153, rfl⟩
abbrev main_call15_v3 : Ref sig .tc := ⟨.hbm, 154, rfl⟩
abbrev main_call15_v4 : Ref sig .tc := ⟨.hbm, 155, rfl⟩
abbrev main_v74 : Ref sig .tc := ⟨.hbm, 156, rfl⟩
abbrev main_cst_36 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_cst_37 : Ref sig .tc := ⟨.hbm, 164, rfl⟩
abbrev main_v81 : Ref sig .tc := ⟨.hbm, 165, rfl⟩
abbrev main_v82 : Ref sig .tc := ⟨.hbm, 166, rfl⟩
abbrev main_v83 : Ref sig .tc := ⟨.hbm, 167, rfl⟩
abbrev main_cst_38 : Ref sig .tc := ⟨.hbm, 168, rfl⟩
abbrev main_cst_39 : Ref sig .tc := ⟨.hbm, 169, rfl⟩
abbrev main_call17_v0 : Ref sig .tc := ⟨.hbm, 170, rfl⟩
abbrev main_call17_v1 : Ref sig .tc := ⟨.hbm, 171, rfl⟩
abbrev main_call17_v2 : Ref sig .tc := ⟨.hbm, 172, rfl⟩
abbrev main_call17_v3 : Ref sig .tc := ⟨.hbm, 173, rfl⟩
abbrev main_call17_v4 : Ref sig .tc := ⟨.hbm, 174, rfl⟩
abbrev main_v84 : Ref sig .tc := ⟨.hbm, 175, rfl⟩
abbrev main_cst_40 : Ref sig .tc := ⟨.hbm, 176, rfl⟩
abbrev main_v85 : Ref sig .tc := ⟨.hbm, 177, rfl⟩
abbrev main_v86 : Ref sig .tc := ⟨.hbm, 178, rfl⟩
abbrev main_v87 : Ref sig .tc := ⟨.hbm, 179, rfl⟩

abbrev nD : Nat := 1
abbrev τ : Topo := Topo.v7x

variable {F : FTy → Type} [FloatOps F]

class Facts₀ : Prop where
  concatenates_S2048x1024_S2048x1024_S2048x2048_d1 : Shape.Concatenates [S2048x1024, S2048x1024] S2048x2048 1
  bcast_S_S2048x2048 : S_.BroadcastsInDim S2048x2048 (![] : Fin 0 → Fin S2048x2048.rank)
  bcast_S_S4096x2048 : S_.BroadcastsInDim S4096x2048 (![] : Fin 0 → Fin S4096x2048.rank)
  bcast_S_S4096 : S_.BroadcastsInDim S4096 (![] : Fin 0 → Fin S4096.rank)
  transposes_S4096x2048_S2048x4096_1_0 : S4096x2048.Transposes [1, 0] S2048x4096
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  slices_S2048x4096_S2048x1024_0_0 : S2048x4096.Slices ![0, 0] S2048x1024
  slices_S2048x4096_S2048x1024_0_1024 : S2048x4096.Slices ![0, 1024] S2048x1024
  slices_S2048x4096_S2048x1024_0_2048 : S2048x4096.Slices ![0, 2048] S2048x1024
  slices_S2048x4096_S2048x1024_0_3072 : S2048x4096.Slices ![0, 3072] S2048x1024
  bcast_S_S2048x1024 : S_.BroadcastsInDim S2048x1024 (![] : Fin 0 → Fin S2048x1024.rank)
  dot_S2048x2048_S2048x4096_S2048x4096_1_0_0_1_n_n_wf : DotDims.WF S2048x2048 S2048x4096 S2048x4096 [1] [0] [0] [1] [] []

variable [Facts₀]

def dot_S2048x2048_S2048x4096_S2048x4096_1_0_0_1_n_n : DotDims S2048x2048 S2048x4096 S2048x4096 where
  lhsContracting := [1]
  rhsContracting := [0]
  lhsNonContracting := [0]
  rhsNonContracting := [1]
  lhsBatch := []
  rhsBatch := []
  wf := dot_S2048x2048_S2048x4096_S2048x4096_1_0_0_1_n_n_wf

class Facts : Prop extends Facts₀ where

variable [Facts]
-- ==== Proof.KernelLayout.lean ====
/-
  The kernel's layout operations read at an index, over the extended reals.

  A block of 256 columns cut from a wider array at column `o` is the array at `(r, o + j)`. A stretch of 256 entries
  cut from a vector at `o`, given a leading axis of extent one and repeated down the rows, is the vector at `o + j` in
  every row. A matrix product of a `[512, 256]` operand with a `[4096, 256]` operand contracting the second axis of
  both, into a zero accumulator, has entry `(r, n)` equal to `Σ k, x0 (r, k) * x1 (n, k)`: the contraction index is a
  single coordinate, the left operand keeps the result's row and the right operand's row is the result's column.
-/
import proofs.«170357_j49331994362494_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Layout

open Cert.KernelIdeal Cert.KernelIdeal.Gen Idealize.ShloMosaic Idealize.ShloMosaic.ValueIdx

/-- A block of 256 columns from column `o` inside `m` columns: every column `o + j` of it is below `m`. -/
theorem col_lt {o m : Nat}
    (inb : ∀ a, (![0, o] : Fin 2 → Nat) a + S512x256.size a ≤ (⟨2, ![512, m]⟩ : Shape).size a) (i : S512x256.Idx) :
    o + (i 1).val < m := by
  have h : o + 256 ≤ m := inb 1
  have := idx2_lt1 i
  omega

/-- A stretch of 256 positions from `o` inside 4096: every position `o + j` of it is below 4096. -/
theorem row_lt {o : Nat} (hs : S4096.Slices ![o] S256) (i : S512x256.Idx) : o + (i 1).val < 4096 := by
  have h : o + 256 ≤ 4096 := hs.2 0
  have := idx2_lt1 i
  omega

/-- The block of 256 columns from column `o` of the `[512, 4096]` accumulator reads it at `(r, o + j)`. -/
theorem ld_acc (P : Vec Ideal S512x4096 .f32) (o : Nat)
    (inb : ∀ a, (![0, o] : Fin 2 → Nat) a + S512x256.size a ≤ S512x4096.size a) :
    View.ld (Val := Elt Ideal) (e' := .f32) P (Rect.unit (s := S512x4096) ![0, o] S512x256.size inb)
      = fun i : S512x256.Idx => P (ix2 (i 0) ⟨o + (i 1).val, col_lt inb i⟩) := by
  funext i
  show P _ = P _
  congr 1
  funext a
  apply Fin.ext
  match a with
  | ⟨0, _⟩ => show 0 + 1 * (i 0).val = (i 0).val; omega
  | ⟨1, _⟩ => show o + 1 * (i 1).val = o + (i 1).val; omega

/-- The block of 256 columns from column `o` of a `[512, 1024]` cell-state block reads it at `(r, o + j)`. -/
theorem ld_cell (cb : Vec Ideal S512x1024 .f32) (o : Nat)
    (inb : ∀ a, (![0, o] : Fin 2 → Nat) a + S512x256.size a ≤ S512x1024.size a) :
    View.ld (Val := Elt Ideal) (e' := .f32) cb (Rect.unit (s := S512x1024) ![0, o] S512x256.size inb)
      = fun i : S512x256.Idx => cb (ix2 (i 0) ⟨o + (i 1).val, col_lt inb i⟩) := by
  funext i
  show cb _ = cb _
  congr 1
  funext a
  apply Fin.ext
  match a with
  | ⟨0, _⟩ => show 0 + 1 * (i 0).val = (i 0).val; omega
  | ⟨1, _⟩ => show o + 1 * (i 1).val = o + (i 1).val; omega

/-- A stretch of 256 entries from `o` of a length-4096 vector, given a leading unit axis and repeated down 512 rows,
    reads the vector at `o + j` in every row. -/
theorem bias_row (v : FVec Ideal S4096 .f32) (o : Nat) (hs : S4096.Slices ![o] S256) (hc : S256.ShapeCasts S1x256)
    (hb : S1x256.Broadcasts S512x256) :
    broadcastTo S512x256 (shapeCast S1x256 (extractStridedSlice S256 ![o] v hs) hc) hb
      = fun i : S512x256.Idx => v (ix1 ⟨o + (i 1).val, row_lt hs i⟩) := by
  funext i
  rw [broadcastTo_apply _ hb i (ix2 (0 : Fin 1) (⟨(i 1).val, idx2_lt1 i⟩ : Fin 256)) (fun a => by
      match a with
      | ⟨0, _⟩ => show 0 = if (1 : Nat) = 1 then 0 else (i 0).val; rw [if_pos rfl]
      | ⟨1, _⟩ => show (i 1).val = if (256 : Nat) = 1 then 0 else (i 1).val; rw [if_neg (by decide)]),
    shapeCast_addUnit_apply (n := 1) ![256] _ hc]
  refine extractStridedSlice_apply ![o] v hs _ _ (fun a => ?_)
  match a with
  | ⟨0, _⟩ => rfl

/-- The left operand's row is the result's row. -/
theorem lhs_row (j : S512x4096.Idx) (q : dot_S512x256_S4096x256_S512x4096_1_1_0_0_n_n.contr.Idx) :
    (dot_S512x256_S4096x256_S512x4096_1_1_0_0_n_n.lhsIdx j q 0).val = (j 0).val := by
  unfold DotDims.lhsIdx
  rw [dif_neg (show ¬(0 : Fin S512x256.rank) ∈ dot_S512x256_S4096x256_S512x4096_1_1_0_0_n_n.lhsBatch by decide),
    dif_pos (show (0 : Fin S512x256.rank) ∈ dot_S512x256_S4096x256_S512x4096_1_1_0_0_n_n.lhsNonContracting by decide)]
  rfl

/-- The left operand's column is the contraction position. -/
theorem lhs_col (j : S512x4096.Idx) (q : dot_S512x256_S4096x256_S512x4096_1_1_0_0_n_n.contr.Idx) :
    (dot_S512x256_S4096x256_S512x4096_1_1_0_0_n_n.lhsIdx j q 1).val = (q ⟨0, by decide⟩).val :=
  dot_S512x256_S4096x256_S512x4096_1_1_0_0_n_n.lhsIdx_val_of_single rfl j q

/-- The right operand's row is the result's column. -/
theorem rhs_row (j : S512x4096.Idx) (q : dot_S512x256_S4096x256_S512x4096_1_1_0_0_n_n.contr.Idx) :
    (dot_S512x256_S4096x256_S512x4096_1_1_0_0_n_n.rhsIdx j q 0).val = (j 1).val := by
  unfold DotDims.rhsIdx
  rw [dif_neg (show ¬(0 : Fin S4096x256.rank) ∈ dot_S512x256_S4096x256_S512x4096_1_1_0_0_n_n.rhsBatch by decide),
    dif_pos (show (0 : Fin S4096x256.rank) ∈ dot_S512x256_S4096x256_S512x4096_1_1_0_0_n_n.rhsNonContracting by decide)]
  rfl

/-- The right operand's column is the contraction position. -/
theorem rhs_col (j : S512x4096.Idx) (q : dot_S512x256_S4096x256_S512x4096_1_1_0_0_n_n.contr.Idx) :
    (dot_S512x256_S4096x256_S512x4096_1_1_0_0_n_n.rhsIdx j q 1).val = (q ⟨0, by decide⟩).val :=
  dot_S512x256_S4096x256_S512x4096_1_1_0_0_n_n.rhsIdx_val_of_single rfl j q

/-- Entry `(r, n)` of the product into a zero accumulator, both operands contracted along their second axis, is
    `Σ k, x0 (r, k) * x1 (n, k)`. -/
theorem matmul_nt (x0 : FVec Ideal S512x256 .bf16) (x1 : FVec Ideal S4096x256 .bf16) (r : Fin 512) (n : Fin 4096) :
    matmul dot_S512x256_S4096x256_S512x4096_1_1_0_0_n_n none x0 x1 (constant S512x4096 .f32 0x00000000#32) (ix2 r n)
      = ∑ kk : Fin 256, x0 (ix2 r kk) * x1 (ix2 n kk) := by
  show FloatOps.matmul dot_S512x256_S4096x256_S512x4096_1_1_0_0_n_n none x0 x1 (constant S512x4096 .f32 0x00000000#32) (ix2 r n) = _
  rw [Ideal.matmul_constant_zero_apply,
    ← Equiv.sum_comp (contrEquiv1 dot_S512x256_S4096x256_S512x4096_1_1_0_0_n_n 256 rfl rfl).symm]
  refine Finset.sum_congr rfl fun k _ => ?_
  have hk := contrEquiv1_symm_val dot_S512x256_S4096x256_S512x4096_1_1_0_0_n_n 256 rfl rfl k
  have el : dot_S512x256_S4096x256_S512x4096_1_1_0_0_n_n.lhsIdx (ix2 r n)
      ((contrEquiv1 dot_S512x256_S4096x256_S512x4096_1_1_0_0_n_n 256 rfl rfl).symm k) = ix2 r k :=
    funext fun a => Fin.ext (by
      match a with
      | ⟨0, _⟩ => exact lhs_row _ _
      | ⟨1, _⟩ => exact (lhs_col _ _).trans hk)
  have er : dot_S512x256_S4096x256_S512x4096_1_1_0_0_n_n.rhsIdx (ix2 r n)
      ((contrEquiv1 dot_S512x256_S4096x256_S512x4096_1_1_0_0_n_n 256 rfl rfl).symm k) = ix2 n k :=
    funext fun a => Fin.ext (by
      match a with
      | ⟨0, _⟩ => exact rhs_row _ _
      | ⟨1, _⟩ => exact (rhs_col _ _).trans hk)
  rw [el, er]

end Cert.KernelIdeal.Layout

end
-- ==== Proof.Spec.lean ====
/-
  The quantized LSTM cell as one function of its argument arrays, over the extended reals.

  Every value the cell touches passes through the same fixed-point quantizer
  `Q x = clamp (round (32 · x)) · 2⁻⁵`, the clamp to `[-128, 127]` and the rounding to nearest with ties to even.
  With `xh` the `[2048, 2048]` array of inputs joined with hidden states, `W` the `[4096, 2048]` weights, `B` the
  `4096` biases and `C` the `[2048, 1024]` cell states, the pre-activation of row `b` and column `n` is
  `pre b n = Σ k, Q (xh b k) · Q (W n k) + Q (B n)`; its four column bands of width 1024 are the input, forget,
  candidate and output gates, and
  `cnew b j = Q (C b j) · Q (σ (pre b (1024 + j))) + Q (σ (pre b j)) · Q (tanh (pre b (2048 + j)))`,
  `hnew b j = Q (tanh (cnew b j)) · Q (σ (pre b (3072 + j)))`.

  Two spellings of the quantizer's first step meet here: the product with `32` and the quotient by `2⁻⁵` are one
  function on every extended real (`div_step`). A sum of `2048` terms is the sum over its eight stretches of `256`
  (`sum_blocks`), which is all that a product accumulated stretch by stretch needs.
-/
import Idealize.ShloMosaic.Lib.ValueIdx
import Idealize.ShloMosaic.PureOps.Ideal.Laws

noncomputable section

open scoped BigOperators

namespace Cert.LstmSpec

open Idealize.ShloMosaic Idealize.ShloMosaic.ValueIdx

/-- The scale `32`. -/
abbrev cScale : EReal := Ideal.ofBits .f32 0x42000000#32
/-- The step `2⁻⁵`. -/
abbrev cStep : EReal := Ideal.ofBits .f32 0x3D000000#32
/-- The lower clamp `-128`. -/
abbrev cLo : EReal := Ideal.ofBits .f32 0xC3000000#32
/-- The upper clamp `127`. -/
abbrev cHi : EReal := Ideal.ofBits .f32 0x42FE0000#32

/-- The word `0x42000000` denotes the real `32`. -/
theorem cScale_val : cScale = ((32 : ℝ) : EReal) := by
  simp [cScale, Ideal.ofBits, Ideal.ieee, -EReal.coe_mul]; norm_num

/-- The word `0x3D000000` denotes the real `1/32`. -/
theorem cStep_val : cStep = ((1 / 32 : ℝ) : EReal) := by
  simp [cStep, Ideal.ofBits, Ideal.ieee, -EReal.coe_mul]; norm_num

/-- Dividing by the step is multiplying by the scale, on every extended real. -/
theorem div_step (x : EReal) : Ideal.div x cStep = x * cScale := by
  rw [cStep_val, cScale_val, Ideal.div_coe (by norm_num : (1 / 32 : ℝ) ≠ 0)]
  norm_num

/-- The fixed-point quantizer: scale, round to nearest (ties to even), clamp, scale back. -/
def Q (x : EReal) : EReal :=
  min cHi (max cLo (Ideal.liftRound Ideal.roundHalfEven (x * cScale))) * cStep

/-- The quantizer spelt with a product by the scale. -/
theorem Q_mul (x : EReal) :
    min cHi (max cLo (Ideal.liftRound Ideal.roundHalfEven (x * cScale))) * cStep = Q x := rfl

/-- The quantizer spelt with a quotient by the step. -/
theorem Q_div (x : EReal) :
    min cHi (max cLo (Ideal.liftRound Ideal.roundHalfEven (Ideal.div x cStep))) * cStep = Q x := by
  rw [div_step]; rfl

/-! ## The cell -/

abbrev SXH : Shape := ⟨2, ![2048, 2048]⟩
abbrev SW : Shape := ⟨2, ![4096, 2048]⟩
abbrev SB : Shape := ⟨1, ![4096]⟩
abbrev SC : Shape := ⟨2, ![2048, 1024]⟩

section
variable (xh : FVec Ideal SXH .f32) (W : FVec Ideal SW .f32) (B : FVec Ideal SB .f32) (C : FVec Ideal SC .f32)

/-- One term of the contraction: the quantized joined input times the quantized weight. -/
def term (b : Fin 2048) (n : Fin 4096) (k : Fin 2048) : EReal := Q (xh (ix2 b k)) * Q (W (ix2 n k))

/-- The contraction of row `b` of the joined inputs with row `n` of the weights. -/
def dot (b : Fin 2048) (n : Fin 4096) : EReal := ∑ k : Fin 2048, term xh W b n k

/-- The pre-activation: the contraction plus the quantized bias. -/
def pre (b : Fin 2048) (n : Fin 4096) : EReal := dot xh W b n + Q (B (ix1 n))

/-- The new cell state. -/
def cnew (b : Fin 2048) (j : Fin 1024) : EReal :=
  Q (C (ix2 b j)) * Q (Ideal.logistic (pre xh W B b ⟨1024 + j.val, by omega⟩))
    + Q (Ideal.logistic (pre xh W B b ⟨j.val, by omega⟩)) * Q (Ideal.tanh (pre xh W B b ⟨2048 + j.val, by omega⟩))

/-- The new hidden state. -/
def hnew (b : Fin 2048) (j : Fin 1024) : EReal :=
  Q (Ideal.tanh (cnew xh W B C b j)) * Q (Ideal.logistic (pre xh W B b ⟨3072 + j.val, by omega⟩))

/-- The array of new hidden states. -/
def Gh : FVec Ideal SC .f32 := fun i => hnew xh W B C (i 0) (i 1)

/-- The array of new cell states. -/
def Gc : FVec Ideal SC .f32 := fun i => cnew xh W B C (i 0) (i 1)

end

/-! ## A long sum by stretches -/

/-- A sum over `2048` positions is the sum, over the first `j` of its eight stretches of `256`, of each stretch's sum,
    once `j` reaches eight. Stated for a partial count so that an accumulation can be followed step by step. -/
theorem sum_blocks {M : Type*} [AddCommMonoid M] (f : Fin 2048 → M) :
    ∑ k : Fin 2048, f k
      = ∑ kb ∈ Finset.range 8, ∑ kk : Fin 256, (if h : 256 * kb + kk.val < 2048 then f ⟨256 * kb + kk.val, h⟩ else 0) := by
  have e : ∑ k : Fin 2048, f k = ∑ p : Fin 8 × Fin 256, f (finProdFinEquiv p) :=
    (Equiv.sum_comp (finProdFinEquiv (m := 8) (n := 256)) f).symm
  rw [e, Fintype.sum_prod_type, ← Fin.sum_univ_eq_sum_range (fun kb => ∑ kk : Fin 256,
    (if h : 256 * kb + kk.val < 2048 then f ⟨256 * kb + kk.val, h⟩ else 0)) 8]
  refine Finset.sum_congr rfl fun kb _ => Finset.sum_congr rfl fun kk _ => ?_
  have h : 256 * kb.val + kk.val < 2048 := by have := kb.isLt; have := kk.isLt; omega
  rw [dif_pos h]
  congr 1
  apply Fin.ext
  show kk.val + 256 * kb.val = 256 * kb.val + kk.val
  omega

end Cert.LstmSpec

end
-- ==== Proof.KernelCell.lean ====
/-
  The epilogue's arithmetic at one entry.

  At the last point of a row block the body turns the accumulated products into the new cell and hidden states, 256
  columns at a time. With `P` the accumulated `[512, 4096]` block, `bv` the bias and `cb` the `[512, 1024]` cell-state
  block, write `preB r n = P (r, n) + Q (bv n)`. For column `y` of the row block the four gates read `preB` at
  columns `y`, `1024 + y`, `2048 + y` and `3072 + y`, and
  `cB = Q (cb (r, y)) · Q (σ (forget)) + Q (σ (input)) · Q (tanh (candidate))`,
  `hB = Q (tanh cB) · Q (σ (output))`.
  Each of the four 256-column stretches is computed by its own operations, cut differently by the printer; every one of
  them is this arithmetic at its own column offsets. The stretch lemmas take the 256-column slices of `P` and `cb` that a
  stretch loads as vectors of their own, each with the equation saying which columns it is.
-/
import proofs.«170357_j49331994362494_2_alg».proof.Proof.KernelLayout
import proofs.«170357_j49331994362494_2_alg».proof.Proof.Spec

set_option maxRecDepth 16384

noncomputable section

namespace Cert.KernelIdeal.Cell

open Cert.KernelIdeal Cert.KernelIdeal.Gen Idealize.ShloMosaic Idealize.ShloMosaic.ValueIdx
open Cert.LstmSpec Cert.KernelIdeal.Layout

variable (P : Vec Ideal S512x4096 .f32) (bv : Vec Ideal S4096 .f32) (cb : Vec Ideal S512x1024 .f32)

/-- The pre-activation of row `r` and column `n`: the accumulated product plus the quantized bias. -/
def preB (r : Fin 512) (n : Fin 4096) : EReal := P (ix2 r n) + Q (bv (ix1 n))

/-- The new cell state of row `r`, from the cell state at column `yc` and the input, forget and candidate
    pre-activations at columns `ni`, `nf`, `ng`. -/
def cB (r : Fin 512) (yc : Fin 1024) (ni nf ng : Fin 4096) : EReal :=
  Q (cb (ix2 r yc)) * Q (Ideal.logistic (preB P bv r nf))
    + Q (Ideal.logistic (preB P bv r ni)) * Q (Ideal.tanh (preB P bv r ng))

/-- The new hidden state: the quantized `tanh` of the new cell state times the quantized output gate at column `no`. -/
def hB (r : Fin 512) (yc : Fin 1024) (ni nf ng no : Fin 4096) : EReal :=
  Q (Ideal.tanh (cB P bv cb r yc ni nf ng)) * Q (Ideal.logistic (preB P bv r no))

/-- Columns `0 + cc` of the new cell state. -/
theorem chunk0_c (ai af ag ac : Vec Ideal S512x256 .f32)
    (hi : ai = fun i : S512x256.Idx => P (ix2 (i 0) (⟨0 + (i 1).val, by have := idx2_lt1 i; omega⟩ : Fin 4096)))
    (hf : af = fun i : S512x256.Idx => P (ix2 (i 0) (⟨1024 + (i 1).val, by have := idx2_lt1 i; omega⟩ : Fin 4096)))
    (hg : ag = fun i : S512x256.Idx => P (ix2 (i 0) (⟨2048 + (i 1).val, by have := idx2_lt1 i; omega⟩ : Fin 4096)))
    (hc : ac = fun i : S512x256.Idx => cb (ix2 (i 0) (⟨0 + (i 1).val, by have := idx2_lt1 i; omega⟩ : Fin 1024)))
    (r : Fin 512) (cc : Fin 256) :
    (k0_pay12 (k0_pay6 bv ag) (k0_pay8 bv ai) (k0_pay9 bv af) k0_pay10 ac) (ix2 r cc)
      = cB P bv cb r (⟨0 + cc.val, by have := cc.isLt; omega⟩ : Fin 1024) (⟨0 + cc.val, by have := cc.isLt; omega⟩ : Fin 4096) (⟨1024 + cc.val, by have := cc.isLt; omega⟩ : Fin 4096) (⟨2048 + cc.val, by have := cc.isLt; omega⟩ : Fin 4096) := by
  subst hi hf hg hc
  unfold k0_pay12 k0_pay6 k0_pay8 k0_pay9 k0_pay10
  dsimp only
  rw [bias_row (k0_pay5 bv) 0 _ _ _, bias_row (k0_pay5 bv) 1024 _ _ _, bias_row (k0_pay5 bv) 2048 _ _ _]
  rfl

/-- Columns `0 + cc` of the new hidden state. -/
theorem chunk0_h (ai af ag ao ac : Vec Ideal S512x256 .f32)
    (hi : ai = fun i : S512x256.Idx => P (ix2 (i 0) (⟨0 + (i 1).val, by have := idx2_lt1 i; omega⟩ : Fin 4096)))
    (hf : af = fun i : S512x256.Idx => P (ix2 (i 0) (⟨1024 + (i 1).val, by have := idx2_lt1 i; omega⟩ : Fin 4096)))
    (hg : ag = fun i : S512x256.Idx => P (ix2 (i 0) (⟨2048 + (i 1).val, by have := idx2_lt1 i; omega⟩ : Fin 4096)))
    (ho : ao = fun i : S512x256.Idx => P (ix2 (i 0) (⟨3072 + (i 1).val, by have := idx2_lt1 i; omega⟩ : Fin 4096)))
    (hc : ac = fun i : S512x256.Idx => cb (ix2 (i 0) (⟨0 + (i 1).val, by have := idx2_lt1 i; omega⟩ : Fin 1024)))
    (r : Fin 512) (cc : Fin 256) :
    (k0_pay14 (k0_pay11 (k0_pay7 bv ao)) (k0_pay13 (k0_pay6 bv ag) (k0_pay8 bv ai) (k0_pay9 bv af) k0_pay10 ac) (FloatOps.ofBits (F := Ideal) .f32 0x42000000#32)) (ix2 r cc)
      = hB P bv cb r (⟨0 + cc.val, by have := cc.isLt; omega⟩ : Fin 1024) (⟨0 + cc.val, by have := cc.isLt; omega⟩ : Fin 4096) (⟨1024 + cc.val, by have := cc.isLt; omega⟩ : Fin 4096) (⟨2048 + cc.val, by have := cc.isLt; omega⟩ : Fin 4096) (⟨3072 + cc.val, by have := cc.isLt; omega⟩ : Fin 4096) := by
  subst hi hf hg ho hc
  unfold k0_pay14 k0_pay11 k0_pay7 k0_pay13 k0_pay12 k0_pay6 k0_pay8 k0_pay9 k0_pay10
  dsimp only
  rw [bias_row (k0_pay5 bv) 0 _ _ _, bias_row (k0_pay5 bv) 1024 _ _ _, bias_row (k0_pay5 bv) 2048 _ _ _, bias_row (k0_pay5 bv) 3072 _ _ _]
  rfl

/-- Columns `256 + cc` of the new cell state. -/
theorem chunk1_c (ai af ag ac : Vec Ideal S512x256 .f32)
    (hi : ai = fun i : S512x256.Idx => P (ix2 (i 0) (⟨256 + (i 1).val, by have := idx2_lt1 i; omega⟩ : Fin 4096)))
    (hf : af = fun i : S512x256.Idx => P (ix2 (i 0) (⟨1280 + (i 1).val, by have := idx2_lt1 i; omega⟩ : Fin 4096)))
    (hg : ag = fun i : S512x256.Idx => P (ix2 (i 0) (⟨2304 + (i 1).val, by have := idx2_lt1 i; omega⟩ : Fin 4096)))
    (hc : ac = fun i : S512x256.Idx => cb (ix2 (i 0) (⟨256 + (i 1).val, by have := idx2_lt1 i; omega⟩ : Fin 1024)))
    (r : Fin 512) (cc : Fin 256) :
    (k0_pay25 (k0_pay19 (k0_pay18 (k0_pay5 bv) ai)) (k0_pay20 (k0_pay15 (k0_pay5 bv) af)) (k0_pay21 (k0_pay16 (k0_pay5 bv) ag)) (k0_pay23 ac) k0_pay24) (ix2 r cc)
      = cB P bv cb r (⟨256 + cc.val, by have := cc.isLt; omega⟩ : Fin 1024) (⟨256 + cc.val, by have := cc.isLt; omega⟩ : Fin 4096) (⟨1280 + cc.val, by have := cc.isLt; omega⟩ : Fin 4096) (⟨2304 + cc.val, by have := cc.isLt; omega⟩ : Fin 4096) := by
  subst hi hf hg hc
  unfold k0_pay25 k0_pay19 k0_pay18 k0_pay20 k0_pay15 k0_pay21 k0_pay16 k0_pay23 k0_pay24
  dsimp only
  rw [bias_row (k0_pay5 bv) 256 _ _ _, bias_row (k0_pay5 bv) 1280 _ _ _, bias_row (k0_pay5 bv) 2304 _ _ _]
  rfl

/-- Columns `256 + cc` of the new hidden state. -/
theorem chunk1_h (ai af ag ao ac : Vec Ideal S512x256 .f32)
    (hi : ai = fun i : S512x256.Idx => P (ix2 (i 0) (⟨256 + (i 1).val, by have := idx2_lt1 i; omega⟩ : Fin 4096)))
    (hf : af = fun i : S512x256.Idx => P (ix2 (i 0) (⟨1280 + (i 1).val, by have := idx2_lt1 i; omega⟩ : Fin 4096)))
    (hg : ag = fun i : S512x256.Idx => P (ix2 (i 0) (⟨2304 + (i 1).val, by have := idx2_lt1 i; omega⟩ : Fin 4096)))
    (ho : ao = fun i : S512x256.Idx => P (ix2 (i 0) (⟨3328 + (i 1).val, by have := idx2_lt1 i; omega⟩ : Fin 4096)))
    (hc : ac = fun i : S512x256.Idx => cb (ix2 (i 0) (⟨256 + (i 1).val, by have := idx2_lt1 i; omega⟩ : Fin 1024)))
    (r : Fin 512) (cc : Fin 256) :
    (k0_pay26 (k0_pay19 (k0_pay18 (k0_pay5 bv) ai)) (k0_pay20 (k0_pay15 (k0_pay5 bv) af)) (k0_pay21 (k0_pay16 (k0_pay5 bv) ag)) (k0_pay22 (k0_pay17 (k0_pay5 bv) ao)) (k0_pay23 ac) k0_pay24) (ix2 r cc)
      = hB P bv cb r (⟨256 + cc.val, by have := cc.isLt; omega⟩ : Fin 1024) (⟨256 + cc.val, by have := cc.isLt; omega⟩ : Fin 4096) (⟨1280 + cc.val, by have := cc.isLt; omega⟩ : Fin 4096) (⟨2304 + cc.val, by have := cc.isLt; omega⟩ : Fin 4096) (⟨3328 + cc.val, by have := cc.isLt; omega⟩ : Fin 4096) := by
  subst hi hf hg ho hc
  unfold k0_pay26 k0_pay25 k0_pay19 k0_pay18 k0_pay20 k0_pay15 k0_pay21 k0_pay16 k0_pay22 k0_pay17 k0_pay23 k0_pay24
  dsimp only
  rw [bias_row (k0_pay5 bv) 256 _ _ _, bias_row (k0_pay5 bv) 1280 _ _ _, bias_row (k0_pay5 bv) 2304 _ _ _, bias_row (k0_pay5 bv) 3328 _ _ _]
  rfl

/-- Columns `512 + cc` of the new cell state. -/
theorem chunk2_c (ai af ag ac : Vec Ideal S512x256 .f32)
    (hi : ai = fun i : S512x256.Idx => P (ix2 (i 0) (⟨512 + (i 1).val, by have := idx2_lt1 i; omega⟩ : Fin 4096)))
    (hf : af = fun i : S512x256.Idx => P (ix2 (i 0) (⟨1536 + (i 1).val, by have := idx2_lt1 i; omega⟩ : Fin 4096)))
    (hg : ag = fun i : S512x256.Idx => P (ix2 (i 0) (⟨2560 + (i 1).val, by have := idx2_lt1 i; omega⟩ : Fin 4096)))
    (hc : ac = fun i : S512x256.Idx => cb (ix2 (i 0) (⟨512 + (i 1).val, by have := idx2_lt1 i; omega⟩ : Fin 1024)))
    (r : Fin 512) (cc : Fin 256) :
    (k0_pay36 (k0_pay31 (k0_pay30 (k0_pay5 bv) ai)) (k0_pay32 (k0_pay27 (k0_pay5 bv) af)) (k0_pay33 (k0_pay28 (k0_pay5 bv) ag)) (k0_pay35 ac) (FloatOps.ofBits (F := Ideal) .f32 0xC3000000#32) (FloatOps.ofBits (F := Ideal) .f32 0x42FE0000#32)) (ix2 r cc)
      = cB P bv cb r (⟨512 + cc.val, by have := cc.isLt; omega⟩ : Fin 1024) (⟨512 + cc.val, by have := cc.isLt; omega⟩ : Fin 4096) (⟨1536 + cc.val, by have := cc.isLt; omega⟩ : Fin 4096) (⟨2560 + cc.val, by have := cc.isLt; omega⟩ : Fin 4096) := by
  subst hi hf hg hc
  unfold k0_pay36 k0_pay31 k0_pay30 k0_pay32 k0_pay27 k0_pay33 k0_pay28 k0_pay35
  dsimp only
  rw [bias_row (k0_pay5 bv) 512 _ _ _, bias_row (k0_pay5 bv) 1536 _ _ _, bias_row (k0_pay5 bv) 2560 _ _ _]
  rfl

/-- Columns `512 + cc` of the new hidden state. -/
theorem chunk2_h (ai af ag ao ac : Vec Ideal S512x256 .f32)
    (hi : ai = fun i : S512x256.Idx => P (ix2 (i 0) (⟨512 + (i 1).val, by have := idx2_lt1 i; omega⟩ : Fin 4096)))
    (hf : af = fun i : S512x256.Idx => P (ix2 (i 0) (⟨1536 + (i 1).val, by have := idx2_lt1 i; omega⟩ : Fin 4096)))
    (hg : ag = fun i : S512x256.Idx => P (ix2 (i 0) (⟨2560 + (i 1).val, by have := idx2_lt1 i; omega⟩ : Fin 4096)))
    (ho : ao = fun i : S512x256.Idx => P (ix2 (i 0) (⟨3584 + (i 1).val, by have := idx2_lt1 i; omega⟩ : Fin 4096)))
    (hc : ac = fun i : S512x256.Idx => cb (ix2 (i 0) (⟨512 + (i 1).val, by have := idx2_lt1 i; omega⟩ : Fin 1024)))
    (r : Fin 512) (cc : Fin 256) :
    (k0_pay37 (k0_pay31 (k0_pay30 (k0_pay5 bv) ai)) (k0_pay32 (k0_pay27 (k0_pay5 bv) af)) (k0_pay33 (k0_pay28 (k0_pay5 bv) ag)) (k0_pay34 (k0_pay29 (k0_pay5 bv) ao)) (k0_pay35 ac) (FloatOps.ofBits (F := Ideal) .f32 0xC3000000#32) (FloatOps.ofBits (F := Ideal) .f32 0x42FE0000#32)) (ix2 r cc)
      = hB P bv cb r (⟨512 + cc.val, by have := cc.isLt; omega⟩ : Fin 1024) (⟨512 + cc.val, by have := cc.isLt; omega⟩ : Fin 4096) (⟨1536 + cc.val, by have := cc.isLt; omega⟩ : Fin 4096) (⟨2560 + cc.val, by have := cc.isLt; omega⟩ : Fin 4096) (⟨3584 + cc.val, by have := cc.isLt; omega⟩ : Fin 4096) := by
  subst hi hf hg ho hc
  unfold k0_pay37 k0_pay36 k0_pay31 k0_pay30 k0_pay32 k0_pay27 k0_pay33 k0_pay28 k0_pay34 k0_pay29 k0_pay35
  dsimp only
  rw [bias_row (k0_pay5 bv) 512 _ _ _, bias_row (k0_pay5 bv) 1536 _ _ _, bias_row (k0_pay5 bv) 2560 _ _ _, bias_row (k0_pay5 bv) 3584 _ _ _]
  rfl

/-- Columns `768 + cc` of the new cell state. -/
theorem chunk3_c (ai af ag ac : Vec Ideal S512x256 .f32)
    (hi : ai = fun i : S512x256.Idx => P (ix2 (i 0) (⟨768 + (i 1).val, by have := idx2_lt1 i; omega⟩ : Fin 4096)))
    (hf : af = fun i : S512x256.Idx => P (ix2 (i 0) (⟨1792 + (i 1).val, by have := idx2_lt1 i; omega⟩ : Fin 4096)))
    (hg : ag = fun i : S512x256.Idx => P (ix2 (i 0) (⟨2816 + (i 1).val, by have := idx2_lt1 i; omega⟩ : Fin 4096)))
    (hc : ac = fun i : S512x256.Idx => cb (ix2 (i 0) (⟨768 + (i 1).val, by have := idx2_lt1 i; omega⟩ : Fin 1024)))
    (r : Fin 512) (cc : Fin 256) :
    (k0_pay3 (k0_pay42 (k0_pay38 (k0_pay5 bv) ai)) (k0_pay43 (k0_pay39 (k0_pay5 bv) af)) (k0_pay44 (k0_pay40 (k0_pay5 bv) ag)) ac) (ix2 r cc)
      = cB P bv cb r (⟨768 + cc.val, by have := cc.isLt; omega⟩ : Fin 1024) (⟨768 + cc.val, by have := cc.isLt; omega⟩ : Fin 4096) (⟨1792 + cc.val, by have := cc.isLt; omega⟩ : Fin 4096) (⟨2816 + cc.val, by have := cc.isLt; omega⟩ : Fin 4096) := by
  subst hi hf hg hc
  unfold k0_pay3 k0_pay42 k0_pay38 k0_pay43 k0_pay39 k0_pay44 k0_pay40
  dsimp only
  rw [bias_row (k0_pay5 bv) 768 _ _ _, bias_row (k0_pay5 bv) 1792 _ _ _, bias_row (k0_pay5 bv) 2816 _ _ _]
  rfl

/-- Columns `768 + cc` of the new hidden state. -/
theorem chunk3_h (ai af ag ao ac : Vec Ideal S512x256 .f32)
    (hi : ai = fun i : S512x256.Idx => P (ix2 (i 0) (⟨768 + (i 1).val, by have := idx2_lt1 i; omega⟩ : Fin 4096)))
    (hf : af = fun i : S512x256.Idx => P (ix2 (i 0) (⟨1792 + (i 1).val, by have := idx2_lt1 i; omega⟩ : Fin 4096)))
    (hg : ag = fun i : S512x256.Idx => P (ix2 (i 0) (⟨2816 + (i 1).val, by have := idx2_lt1 i; omega⟩ : Fin 4096)))
    (ho : ao = fun i : S512x256.Idx => P (ix2 (i 0) (⟨3840 + (i 1).val, by have := idx2_lt1 i; omega⟩ : Fin 4096)))
    (hc : ac = fun i : S512x256.Idx => cb (ix2 (i 0) (⟨768 + (i 1).val, by have := idx2_lt1 i; omega⟩ : Fin 1024)))
    (r : Fin 512) (cc : Fin 256) :
    (k0_pay4 (k0_pay42 (k0_pay38 (k0_pay5 bv) ai)) (k0_pay43 (k0_pay39 (k0_pay5 bv) af)) (k0_pay44 (k0_pay40 (k0_pay5 bv) ag)) (k0_pay45 ao (k0_pay41 (k0_pay5 bv))) ac) (ix2 r cc)
      = hB P bv cb r (⟨768 + cc.val, by have := cc.isLt; omega⟩ : Fin 1024) (⟨768 + cc.val, by have := cc.isLt; omega⟩ : Fin 4096) (⟨1792 + cc.val, by have := cc.isLt; omega⟩ : Fin 4096) (⟨2816 + cc.val, by have := cc.isLt; omega⟩ : Fin 4096) (⟨3840 + cc.val, by have := cc.isLt; omega⟩ : Fin 4096) := by
  subst hi hf hg ho hc
  unfold k0_pay4 k0_pay3 k0_pay42 k0_pay38 k0_pay43 k0_pay39 k0_pay44 k0_pay40 k0_pay45 k0_pay41
  dsimp only
  rw [bias_row (k0_pay5 bv) 768 _ _ _, bias_row (k0_pay5 bv) 1792 _ _ _, bias_row (k0_pay5 bv) 2816 _ _ _, bias_row (k0_pay5 bv) 3840 _ _ _]
  rfl

end Cert.KernelIdeal.Cell

end
-- ==== Proof.KernelScratch.lean ====
/-
  What each case of the body leaves in the accumulator it carries from one grid point to the next.

  The body adds, to what the accumulator holds, the product of the point's block of the first operand with the
  transpose of the point's block of the second (`k0_pay2`), and stores the sum back whole. At the first point of a
  row block it first stores zeros and reads them back, so the sum starts from zero (`k0_pay1`); at every other point
  it starts from what the point before left. The last point of a row block does the same before its epilogue.
-/
import proofs.«170357_j49331994362494_2_alg».proof.Proof.Gen.KernelIdeal.Frame
import Idealize.ShloMosaic.Lib.Pipeline.Value
import Idealize.ShloMosaic.Lib.Tactic

set_option maxRecDepth 16384

noncomputable section

namespace Cert.KernelIdeal.Scratch

open Cert.KernelIdeal Cert.KernelIdeal.Gen Idealize.ShloMosaic Idealize.ShloMosaic.TcCoe Idealize.SL.Sem

variable {F : FTy → Type} [FloatOps F]

/-- The zero offsets of a rank-2 rectangle, spelt as a constant function. -/
theorem hz2 : (![0, 0] : Fin 2 → Nat) = fun _ => 0 := funext fun a => by fin_cases a <;> rfl

/-- At the first point of a row block the accumulator ends at zero plus the point's product. -/
theorem sout_A (c : Dev nD) (i : grid0.Coords) (arg2 : Memref sig .tc .vmem S512x256 .bf16) (harg2 : arg2.IsWhole) (arg3 : Memref sig .tc .vmem S4096x256 .bf16) (harg3 : arg3.IsWhole) (arg4 : Memref sig .tc .vmem S4096 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x4096 .f32) (harg8 : arg8.IsWhole) (hc0 : cond0_0 i) (hc1 : ¬cond0_1 i)
    (x0 : Vec F S512x256 .bf16) (x1 : Vec F S4096x256 .bf16) (x2 : Vec F S4096 .f32) (x3 : Vec F S512x1024 .f32) :
    sout0_A_0 c i arg2 harg2 arg3 harg3 arg4 harg4 arg5 harg5 arg6 harg6 arg7 harg7 arg8 harg8 hc0 hc1 x0 x1 x2 x3 = k0_pay2 x0 x1 k0_pay1 := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S512x4096) hz2, View.readCov_unit_zero (S := S512x4096) _ hz2]
  simp only [View.readAt_eq_ld, harg2.read_unread, harg3.read_unread, View.ld_unit_zero (S := S512x256) hz2,
    View.ld_unit_zero (S := S4096x256) hz2]

/-- At a middle point the accumulator ends at what it held plus the point's product. -/
theorem sout_B (c : Dev nD) (i : grid0.Coords) (arg2 : Memref sig .tc .vmem S512x256 .bf16) (harg2 : arg2.IsWhole) (arg3 : Memref sig .tc .vmem S4096x256 .bf16) (harg3 : arg3.IsWhole) (arg4 : Memref sig .tc .vmem S4096 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x4096 .f32) (harg8 : arg8.IsWhole) (hc0 : ¬cond0_0 i) (hc1 : ¬cond0_1 i)
    (x0 : Vec F S512x256 .bf16) (x1 : Vec F S4096x256 .bf16) (x2 : Vec F S4096 .f32) (x3 : Vec F S512x1024 .f32) (xs0 : Vec F S512x4096 .f32) :
    sout0_B_0 c i arg2 harg2 arg3 harg3 arg4 harg4 arg5 harg5 arg6 harg6 arg7 harg7 arg8 harg8 hc0 hc1 x0 x1 x2 x3 xs0 = k0_pay2 x0 x1 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0)]
  unfold kernelRun0_B
  dsimp only
  rw [View.canon_unit_zero (S := S512x4096) hz2]
  simp only [View.readAt_eq_ld, harg2.read_unread, harg3.read_unread, harg8.read_unread, View.ld_unit_zero (S := S512x256) hz2,
    View.ld_unit_zero (S := S4096x256) hz2, View.ld_unit_zero (S := S512x4096) hz2]

/-- At the last point of a row block, likewise. -/
theorem sout_C (c : Dev nD) (i : grid0.Coords) (arg2 : Memref sig .tc .vmem S512x256 .bf16) (harg2 : arg2.IsWhole) (arg3 : Memref sig .tc .vmem S4096x256 .bf16) (harg3 : arg3.IsWhole) (arg4 : Memref sig .tc .vmem S4096 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x4096 .f32) (harg8 : arg8.IsWhole) (hc0 : ¬cond0_0 i) (hc1 : cond0_1 i)
    (x0 : Vec F S512x256 .bf16) (x1 : Vec F S4096x256 .bf16) (x2 : Vec F S4096 .f32) (x3 : Vec F S512x1024 .f32) (xs0 : Vec F S512x4096 .f32) :
    sout0_C_0 c i arg2 harg2 arg3 harg3 arg4 harg4 arg5 harg5 arg6 harg6 arg7 harg7 arg8 harg8 hc0 hc1 x0 x1 x2 x3 xs0 = k0_pay2 x0 x1 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0)]
  unfold kernelRun0_C
  dsimp only
  sl_unfold_words
  rw [View.canon_unit_zero (S := S512x4096) hz2]
  simp only [View.readAt_eq_ld, harg2.read_unread, harg3.read_unread, harg8.read_unread, View.ld_unit_zero (S := S512x256) hz2,
    View.ld_unit_zero (S := S4096x256) hz2, View.ld_unit_zero (S := S512x4096) hz2]

end Cert.KernelIdeal.Scratch

end
-- ==== Proof.KernelOut.lean ====
/-
  What the last point of a row block leaves in the two outputs' staging buffers.

  The epilogue fills each `[512, 1024]` output block by four stores of 256 columns. Every store's value, at its own
  entry `(r, cc)`, is the cell arithmetic at row `r` and column `offset + cc` of the block (the four stretch lemmas);
  the four rectangles tile the block; so the block the stores leave is ONE function of the block index: `hBlk` for the
  hidden states and `cBlk` for the cell states, over the accumulated products `P`, the bias `bv` and the cell-state
  block `cb`. The accumulated products the epilogue reads are what the same point's accumulate step has just stored.
-/
import proofs.«170357_j49331994362494_2_alg».proof.Proof.KernelCell
import proofs.«170357_j49331994362494_2_alg».proof.Proof.KernelScratch
import proofs.«170357_j49331994362494_2_alg».proof.Proof.Gen.KernelIdeal.Frame
import Idealize.ShloMosaic.Lib.Pipeline.Value
import Idealize.ShloMosaic.Lib.Tactic

set_option maxRecDepth 16384

noncomputable section

namespace Cert.KernelIdeal.Out

open Cert.KernelIdeal Cert.KernelIdeal.Gen Idealize.ShloMosaic Idealize.ShloMosaic.TcCoe Idealize.SL.Sem
open Idealize.ShloMosaic.ValueIdx Cert.LstmSpec Cert.KernelIdeal.Layout Cert.KernelIdeal.Cell Cert.KernelIdeal.Scratch

section Block
variable (P : Vec Ideal S512x4096 .f32) (bv : Vec Ideal S4096 .f32) (cb : Vec Ideal S512x1024 .f32)

/-- The block of new cell states: entry `(r, y)` reads the gates at columns `y`, `1024 + y`, `2048 + y`. -/
def cBlk : Vec Ideal S512x1024 .f32 := fun y =>
  cB P bv cb (y 0) (y 1) (⟨(y 1).val, by have := idx2_lt1 y; omega⟩ : Fin 4096) (⟨1024 + (y 1).val, by have := idx2_lt1 y; omega⟩ : Fin 4096) (⟨2048 + (y 1).val, by have := idx2_lt1 y; omega⟩ : Fin 4096)

/-- The block of new hidden states: entry `(r, y)` reads also the output gate at column `3072 + y`. -/
def hBlk : Vec Ideal S512x1024 .f32 := fun y =>
  hB P bv cb (y 0) (y 1) (⟨(y 1).val, by have := idx2_lt1 y; omega⟩ : Fin 4096) (⟨1024 + (y 1).val, by have := idx2_lt1 y; omega⟩ : Fin 4096) (⟨2048 + (y 1).val, by have := idx2_lt1 y; omega⟩ : Fin 4096) (⟨3072 + (y 1).val, by have := idx2_lt1 y; omega⟩ : Fin 4096)

/-- The cell arithmetic depends only on its row and columns. -/
theorem cB_congr {r r' : Fin 512} {yc yc' : Fin 1024} {ni ni' nf nf' ng ng' : Fin 4096}
    (e0 : r = r') (e1 : yc = yc') (e2 : ni = ni') (e3 : nf = nf') (e4 : ng = ng') :
    cB P bv cb r yc ni nf ng = cB P bv cb r' yc' ni' nf' ng' := by
  subst e0 e1 e2 e3 e4; rfl

theorem hB_congr {r r' : Fin 512} {yc yc' : Fin 1024} {ni ni' nf nf' ng ng' no no' : Fin 4096}
    (e0 : r = r') (e1 : yc = yc') (e2 : ni = ni') (e3 : nf = nf') (e4 : ng = ng') (e5 : no = no') :
    hB P bv cb r yc ni nf ng no = hB P bv cb r' yc' ni' nf' ng' no' := by
  subst e0 e1 e2 e3 e4 e5; rfl

/-- The store of columns `0, …, 255` of the cell states writes `cBlk` there. -/
theorem piece0_c (ai af ag ac : Vec Ideal S512x256 .f32)
    (hi : ai = fun i : S512x256.Idx => P (ix2 (i 0) (⟨0 + (i 1).val, by have := idx2_lt1 i; omega⟩ : Fin 4096)))
    (hf : af = fun i : S512x256.Idx => P (ix2 (i 0) (⟨1024 + (i 1).val, by have := idx2_lt1 i; omega⟩ : Fin 4096)))
    (hg : ag = fun i : S512x256.Idx => P (ix2 (i 0) (⟨2048 + (i 1).val, by have := idx2_lt1 i; omega⟩ : Fin 4096)))
    (hc : ac = fun i : S512x256.Idx => cb (ix2 (i 0) (⟨0 + (i 1).val, by have := idx2_lt1 i; omega⟩ : Fin 1024)))
    (x : S512x256.Idx) :
    (k0_pay12 (k0_pay6 bv ag) (k0_pay8 bv ai) (k0_pay9 bv af) k0_pay10 ac) x
      = cBlk P bv cb ((Rect.unit (s := S512x1024) ![0, 0] ![512, 256] Facts₀.inb_S512x1024_S512x256_0_0).emb x) := by
  obtain ⟨r, cc, rfl⟩ : ∃ (r : Fin 512) (cc : Fin 256), x = ix2 r cc := ⟨x 0, x 1, eq_ix2 x⟩
  rw [chunk0_c P bv cb ai af ag ac hi hf hg hc]
  unfold cBlk
  refine cB_congr P bv cb ?_ ?_ ?_ ?_ ?_ <;> apply Fin.ext
  · show r.val = 0 + 1 * r.val; omega
  · show 0 + cc.val = 0 + 1 * cc.val; omega
  · show 0 + cc.val = 0 + 1 * cc.val; omega
  · show 1024 + cc.val = 1024 + (0 + 1 * cc.val); omega
  · show 2048 + cc.val = 2048 + (0 + 1 * cc.val); omega

/-- The store of columns `0, …, 255` of the hidden states writes `hBlk` there. -/
theorem piece0_h (ai af ag ao ac : Vec Ideal S512x256 .f32)
    (hi : ai = fun i : S512x256.Idx => P (ix2 (i 0) (⟨0 + (i 1).val, by have := idx2_lt1 i; omega⟩ : Fin 4096)))
    (hf : af = fun i : S512x256.Idx => P (ix2 (i 0) (⟨1024 + (i 1).val, by have := idx2_lt1 i; omega⟩ : Fin 4096)))
    (hg : ag = fun i : S512x256.Idx => P (ix2 (i 0) (⟨2048 + (i 1).val, by have := idx2_lt1 i; omega⟩ : Fin 4096)))
    (ho : ao = fun i : S512x256.Idx => P (ix2 (i 0) (⟨3072 + (i 1).val, by have := idx2_lt1 i; omega⟩ : Fin 4096)))
    (hc : ac = fun i : S512x256.Idx => cb (ix2 (i 0) (⟨0 + (i 1).val, by have := idx2_lt1 i; omega⟩ : Fin 1024)))
    (x : S512x256.Idx) :
    (k0_pay14 (k0_pay11 (k0_pay7 bv ao)) (k0_pay13 (k0_pay6 bv ag) (k0_pay8 bv ai) (k0_pay9 bv af) k0_pay10 ac) (FloatOps.ofBits (F := Ideal) .f32 0x42000000#32)) x
      = hBlk P bv cb ((Rect.unit (s := S512x1024) ![0, 0] ![512, 256] Facts₀.inb_S512x1024_S512x256_0_0).emb x) := by
  obtain ⟨r, cc, rfl⟩ : ∃ (r : Fin 512) (cc : Fin 256), x = ix2 r cc := ⟨x 0, x 1, eq_ix2 x⟩
  rw [chunk0_h P bv cb ai af ag ao ac hi hf hg ho hc]
  unfold hBlk
  refine hB_congr P bv cb ?_ ?_ ?_ ?_ ?_ ?_ <;> apply Fin.ext
  · show r.val = 0 + 1 * r.val; omega
  · show 0 + cc.val = 0 + 1 * cc.val; omega
  · show 0 + cc.val = 0 + 1 * cc.val; omega
  · show 1024 + cc.val = 1024 + (0 + 1 * cc.val); omega
  · show 2048 + cc.val = 2048 + (0 + 1 * cc.val); omega
  · show 3072 + cc.val = 3072 + (0 + 1 * cc.val); omega

/-- The store of columns `256, …, 511` of the cell states writes `cBlk` there. -/
theorem piece1_c (ai af ag ac : Vec Ideal S512x256 .f32)
    (hi : ai = fun i : S512x256.Idx => P (ix2 (i 0) (⟨256 + (i 1).val, by have := idx2_lt1 i; omega⟩ : Fin 4096)))
    (hf : af = fun i : S512x256.Idx => P (ix2 (i 0) (⟨1280 + (i 1).val, by have := idx2_lt1 i; omega⟩ : Fin 4096)))
    (hg : ag = fun i : S512x256.Idx => P (ix2 (i 0) (⟨2304 + (i 1).val, by have := idx2_lt1 i; omega⟩ : Fin 4096)))
    (hc : ac = fun i : S512x256.Idx => cb (ix2 (i 0) (⟨256 + (i 1).val, by have := idx2_lt1 i; omega⟩ : Fin 1024)))
    (x : S512x256.Idx) :
    (k0_pay25 (k0_pay19 (k0_pay18 (k0_pay5 bv) ai)) (k0_pay20 (k0_pay15 (k0_pay5 bv) af)) (k0_pay21 (k0_pay16 (k0_pay5 bv) ag)) (k0_pay23 ac) k0_pay24) x
      = cBlk P bv cb ((Rect.unit (s := S512x1024) ![0, 256] ![512, 256] Facts₀.inb_S512x1024_S512x256_0_256).emb x) := by
  obtain ⟨r, cc, rfl⟩ : ∃ (r : Fin 512) (cc : Fin 256), x = ix2 r cc := ⟨x 0, x 1, eq_ix2 x⟩
  rw [chunk1_c P bv cb ai af ag ac hi hf hg hc]
  unfold cBlk
  refine cB_congr P bv cb ?_ ?_ ?_ ?_ ?_ <;> apply Fin.ext
  · show r.val = 0 + 1 * r.val; omega
  · show 256 + cc.val = 256 + 1 * cc.val; omega
  · show 256 + cc.val = 256 + 1 * cc.val; omega
  · show 1280 + cc.val = 1024 + (256 + 1 * cc.val); omega
  · show 2304 + cc.val = 2048 + (256 + 1 * cc.val); omega

/-- The store of columns `256, …, 511` of the hidden states writes `hBlk` there. -/
theorem piece1_h (ai af ag ao ac : Vec Ideal S512x256 .f32)
    (hi : ai = fun i : S512x256.Idx => P (ix2 (i 0) (⟨256 + (i 1).val, by have := idx2_lt1 i; omega⟩ : Fin 4096)))
    (hf : af = fun i : S512x256.Idx => P (ix2 (i 0) (⟨1280 + (i 1).val, by have := idx2_lt1 i; omega⟩ : Fin 4096)))
    (hg : ag = fun i : S512x256.Idx => P (ix2 (i 0) (⟨2304 + (i 1).val, by have := idx2_lt1 i; omega⟩ : Fin 4096)))
    (ho : ao = fun i : S512x256.Idx => P (ix2 (i 0) (⟨3328 + (i 1).val, by have := idx2_lt1 i; omega⟩ : Fin 4096)))
    (hc : ac = fun i : S512x256.Idx => cb (ix2 (i 0) (⟨256 + (i 1).val, by have := idx2_lt1 i; omega⟩ : Fin 1024)))
    (x : S512x256.Idx) :
    (k0_pay26 (k0_pay19 (k0_pay18 (k0_pay5 bv) ai)) (k0_pay20 (k0_pay15 (k0_pay5 bv) af)) (k0_pay21 (k0_pay16 (k0_pay5 bv) ag)) (k0_pay22 (k0_pay17 (k0_pay5 bv) ao)) (k0_pay23 ac) k0_pay24) x
      = hBlk P bv cb ((Rect.unit (s := S512x1024) ![0, 256] ![512, 256] Facts₀.inb_S512x1024_S512x256_0_256).emb x) := by
  obtain ⟨r, cc, rfl⟩ : ∃ (r : Fin 512) (cc : Fin 256), x = ix2 r cc := ⟨x 0, x 1, eq_ix2 x⟩
  rw [chunk1_h P bv cb ai af ag ao ac hi hf hg ho hc]
  unfold hBlk
  refine hB_congr P bv cb ?_ ?_ ?_ ?_ ?_ ?_ <;> apply Fin.ext
  · show r.val = 0 + 1 * r.val; omega
  · show 256 + cc.val = 256 + 1 * cc.val; omega
  · show 256 + cc.val = 256 + 1 * cc.val; omega
  · show 1280 + cc.val = 1024 + (256 + 1 * cc.val); omega
  · show 2304 + cc.val = 2048 + (256 + 1 * cc.val); omega
  · show 3328 + cc.val = 3072 + (256 + 1 * cc.val); omega

/-- The store of columns `512, …, 767` of the cell states writes `cBlk` there. -/
theorem piece2_c (ai af ag ac : Vec Ideal S512x256 .f32)
    (hi : ai = fun i : S512x256.Idx => P (ix2 (i 0) (⟨512 + (i 1).val, by have := idx2_lt1 i; omega⟩ : Fin 4096)))
    (hf : af = fun i : S512x256.Idx => P (ix2 (i 0) (⟨1536 + (i 1).val, by have := idx2_lt1 i; omega⟩ : Fin 4096)))
    (hg : ag = fun i : S512x256.Idx => P (ix2 (i 0) (⟨2560 + (i 1).val, by have := idx2_lt1 i; omega⟩ : Fin 4096)))
    (hc : ac = fun i : S512x256.Idx => cb (ix2 (i 0) (⟨512 + (i 1).val, by have := idx2_lt1 i; omega⟩ : Fin 1024)))
    (x : S512x256.Idx) :
    (k0_pay36 (k0_pay31 (k0_pay30 (k0_pay5 bv) ai)) (k0_pay32 (k0_pay27 (k0_pay5 bv) af)) (k0_pay33 (k0_pay28 (k0_pay5 bv) ag)) (k0_pay35 ac) (FloatOps.ofBits (F := Ideal) .f32 0xC3000000#32) (FloatOps.ofBits (F := Ideal) .f32 0x42FE0000#32)) x
      = cBlk P bv cb ((Rect.unit (s := S512x1024) ![0, 512] ![512, 256] Facts₀.inb_S512x1024_S512x256_0_512).emb x) := by
  obtain ⟨r, cc, rfl⟩ : ∃ (r : Fin 512) (cc : Fin 256), x = ix2 r cc := ⟨x 0, x 1, eq_ix2 x⟩
  rw [chunk2_c P bv cb ai af ag ac hi hf hg hc]
  unfold cBlk
  refine cB_congr P bv cb ?_ ?_ ?_ ?_ ?_ <;> apply Fin.ext
  · show r.val = 0 + 1 * r.val; omega
  · show 512 + cc.val = 512 + 1 * cc.val; omega
  · show 512 + cc.val = 512 + 1 * cc.val; omega
  · show 1536 + cc.val = 1024 + (512 + 1 * cc.val); omega
  · show 2560 + cc.val = 2048 + (512 + 1 * cc.val); omega

/-- The store of columns `512, …, 767` of the hidden states writes `hBlk` there. -/
theorem piece2_h (ai af ag ao ac : Vec Ideal S512x256 .f32)
    (hi : ai = fun i : S512x256.Idx => P (ix2 (i 0) (⟨512 + (i 1).val, by have := idx2_lt1 i; omega⟩ : Fin 4096)))
    (hf : af = fun i : S512x256.Idx => P (ix2 (i 0) (⟨1536 + (i 1).val, by have := idx2_lt1 i; omega⟩ : Fin 4096)))
    (hg : ag = fun i : S512x256.Idx => P (ix2 (i 0) (⟨2560 + (i 1).val, by have := idx2_lt1 i; omega⟩ : Fin 4096)))
    (ho : ao = fun i : S512x256.Idx => P (ix2 (i 0) (⟨3584 + (i 1).val, by have := idx2_lt1 i; omega⟩ : Fin 4096)))
    (hc : ac = fun i : S512x256.Idx => cb (ix2 (i 0) (⟨512 + (i 1).val, by have := idx2_lt1 i; omega⟩ : Fin 1024)))
    (x : S512x256.Idx) :
    (k0_pay37 (k0_pay31 (k0_pay30 (k0_pay5 bv) ai)) (k0_pay32 (k0_pay27 (k0_pay5 bv) af)) (k0_pay33 (k0_pay28 (k0_pay5 bv) ag)) (k0_pay34 (k0_pay29 (k0_pay5 bv) ao)) (k0_pay35 ac) (FloatOps.ofBits (F := Ideal) .f32 0xC3000000#32) (FloatOps.ofBits (F := Ideal) .f32 0x42FE0000#32)) x
      = hBlk P bv cb ((Rect.unit (s := S512x1024) ![0, 512] ![512, 256] Facts₀.inb_S512x1024_S512x256_0_512).emb x) := by
  obtain ⟨r, cc, rfl⟩ : ∃ (r : Fin 512) (cc : Fin 256), x = ix2 r cc := ⟨x 0, x 1, eq_ix2 x⟩
  rw [chunk2_h P bv cb ai af ag ao ac hi hf hg ho hc]
  unfold hBlk
  refine hB_congr P bv cb ?_ ?_ ?_ ?_ ?_ ?_ <;> apply Fin.ext
  · show r.val = 0 + 1 * r.val; omega
  · show 512 + cc.val = 512 + 1 * cc.val; omega
  · show 512 + cc.val = 512 + 1 * cc.val; omega
  · show 1536 + cc.val = 1024 + (512 + 1 * cc.val); omega
  · show 2560 + cc.val = 2048 + (512 + 1 * cc.val); omega
  · show 3584 + cc.val = 3072 + (512 + 1 * cc.val); omega

/-- The store of columns `768, …, 1023` of the cell states writes `cBlk` there. -/
theorem piece3_c (ai af ag ac : Vec Ideal S512x256 .f32)
    (hi : ai = fun i : S512x256.Idx => P (ix2 (i 0) (⟨768 + (i 1).val, by have := idx2_lt1 i; omega⟩ : Fin 4096)))
    (hf : af = fun i : S512x256.Idx => P (ix2 (i 0) (⟨1792 + (i 1).val, by have := idx2_lt1 i; omega⟩ : Fin 4096)))
    (hg : ag = fun i : S512x256.Idx => P (ix2 (i 0) (⟨2816 + (i 1).val, by have := idx2_lt1 i; omega⟩ : Fin 4096)))
    (hc : ac = fun i : S512x256.Idx => cb (ix2 (i 0) (⟨768 + (i 1).val, by have := idx2_lt1 i; omega⟩ : Fin 1024)))
    (x : S512x256.Idx) :
    (k0_pay3 (k0_pay42 (k0_pay38 (k0_pay5 bv) ai)) (k0_pay43 (k0_pay39 (k0_pay5 bv) af)) (k0_pay44 (k0_pay40 (k0_pay5 bv) ag)) ac) x
      = cBlk P bv cb ((Rect.unit (s := S512x1024) ![0, 768] ![512, 256] Facts₀.inb_S512x1024_S512x256_0_768).emb x) := by
  obtain ⟨r, cc, rfl⟩ : ∃ (r : Fin 512) (cc : Fin 256), x = ix2 r cc := ⟨x 0, x 1, eq_ix2 x⟩
  rw [chunk3_c P bv cb ai af ag ac hi hf hg hc]
  unfold cBlk
  refine cB_congr P bv cb ?_ ?_ ?_ ?_ ?_ <;> apply Fin.ext
  · show r.val = 0 + 1 * r.val; omega
  · show 768 + cc.val = 768 + 1 * cc.val; omega
  · show 768 + cc.val = 768 + 1 * cc.val; omega
  · show 1792 + cc.val = 1024 + (768 + 1 * cc.val); omega
  · show 2816 + cc.val = 2048 + (768 + 1 * cc.val); omega

/-- The store of columns `768, …, 1023` of the hidden states writes `hBlk` there. -/
theorem piece3_h (ai af ag ao ac : Vec Ideal S512x256 .f32)
    (hi : ai = fun i : S512x256.Idx => P (ix2 (i 0) (⟨768 + (i 1).val, by have := idx2_lt1 i; omega⟩ : Fin 4096)))
    (hf : af = fun i : S512x256.Idx => P (ix2 (i 0) (⟨1792 + (i 1).val, by have := idx2_lt1 i; omega⟩ : Fin 4096)))
    (hg : ag = fun i : S512x256.Idx => P (ix2 (i 0) (⟨2816 + (i 1).val, by have := idx2_lt1 i; omega⟩ : Fin 4096)))
    (ho : ao = fun i : S512x256.Idx => P (ix2 (i 0) (⟨3840 + (i 1).val, by have := idx2_lt1 i; omega⟩ : Fin 4096)))
    (hc : ac = fun i : S512x256.Idx => cb (ix2 (i 0) (⟨768 + (i 1).val, by have := idx2_lt1 i; omega⟩ : Fin 1024)))
    (x : S512x256.Idx) :
    (k0_pay4 (k0_pay42 (k0_pay38 (k0_pay5 bv) ai)) (k0_pay43 (k0_pay39 (k0_pay5 bv) af)) (k0_pay44 (k0_pay40 (k0_pay5 bv) ag)) (k0_pay45 ao (k0_pay41 (k0_pay5 bv))) ac) x
      = hBlk P bv cb ((Rect.unit (s := S512x1024) ![0, 768] ![512, 256] Facts₀.inb_S512x1024_S512x256_0_768).emb x) := by
  obtain ⟨r, cc, rfl⟩ : ∃ (r : Fin 512) (cc : Fin 256), x = ix2 r cc := ⟨x 0, x 1, eq_ix2 x⟩
  rw [chunk3_h P bv cb ai af ag ao ac hi hf hg ho hc]
  unfold hBlk
  refine hB_congr P bv cb ?_ ?_ ?_ ?_ ?_ ?_ <;> apply Fin.ext
  · show r.val = 0 + 1 * r.val; omega
  · show 768 + cc.val = 768 + 1 * cc.val; omega
  · show 768 + cc.val = 768 + 1 * cc.val; omega
  · show 1792 + cc.val = 1024 + (768 + 1 * cc.val); omega
  · show 2816 + cc.val = 2048 + (768 + 1 * cc.val); omega
  · show 3840 + cc.val = 3072 + (768 + 1 * cc.val); omega

end Block

/-- The zero offset of a rank-1 rectangle, spelt as a constant function. -/
theorem hz1 : (![0] : Fin 1 → Nat) = fun _ => 0 := funext fun a => by fin_cases a; rfl

/-- A load from the accumulator, after one store that covered it, reads what was stored through the load's rectangle. -/
theorem readCov_acc {sig : RefSig} {κ : Kind} {sp : Space} (v : View sig κ sp S512x4096 .f32)
    (inb0 : ∀ a, (![0, 0] : Fin 2 → Nat) a + S512x4096.size a ≤ S512x4096.size a) (w : S512x4096.Idx → Elt Ideal .f32) (r : Rect S512x4096) :
    v.readCov [(⟨Rect.unit ![0, 0] S512x4096.size inb0, w⟩ : View.Piece (Elt Ideal) S512x4096 .f32)] r.toLoadRect = View.ld w r := by
  rw [View.readCov_eq_canon_ld _ _ _ (fun y => ⟨_, List.mem_singleton_self _, View.mem_set_unit_zero hz2 inb0 y⟩),
    View.canon_unit_zero hz2]

/-- Such a load of 256 columns from column `o` reads columns `o, …, o + 255` of what was stored. -/
theorem acc_slice {sig : RefSig} {κ : Kind} {sp : Space} (v : View sig κ sp S512x4096 .f32)
    (inb0 : ∀ a, (![0, 0] : Fin 2 → Nat) a + S512x4096.size a ≤ S512x4096.size a) (w : Vec Ideal S512x4096 .f32)
    (o : Nat) (inb : ∀ a, (![0, o] : Fin 2 → Nat) a + S512x256.size a ≤ S512x4096.size a) :
    v.readCov [(⟨Rect.unit ![0, 0] S512x4096.size inb0, w⟩ : View.Piece (Elt Ideal) S512x4096 .f32)]
        (Rect.unit (s := S512x4096) ![0, o] S512x256.size inb).toLoadRect
      = fun i : S512x256.Idx => w (ix2 (i 0) ⟨o + (i 1).val, col_lt inb i⟩) :=
  (readCov_acc v inb0 w (Rect.unit (s := S512x4096) ![0, o] S512x256.size inb)).trans (ld_acc w o inb)

/-- The last point of a row block leaves the block of new hidden states in the first output's buffer. -/
theorem outC4_eq (c : Dev nD) (i : grid0.Coords) (arg2 : Memref sig .tc .vmem S512x256 .bf16) (harg2 : arg2.IsWhole) (arg3 : Memref sig .tc .vmem S4096x256 .bf16) (harg3 : arg3.IsWhole) (arg4 : Memref sig .tc .vmem S4096 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x4096 .f32) (harg8 : arg8.IsWhole) (hc0 : ¬cond0_0 i) (hc1 : cond0_1 i)
    (x0 : Vec Ideal S512x256 .bf16) (x1 : Vec Ideal S4096x256 .bf16) (x2 : Vec Ideal S4096 .f32) (x3 : Vec Ideal S512x1024 .f32) (xs0 : Vec Ideal S512x4096 .f32) :
    out0_C_4 c i arg2 harg2 arg3 harg3 arg4 harg4 arg5 harg5 arg6 harg6 arg7 harg7 arg8 harg8 hc0 hc1 x0 x1 x2 x3 xs0 = hBlk (k0_pay2 x0 x1 xs0) x2 x3 := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0)]
  funext y
  refine View.canon_apply_of_pieces (hBlk (k0_pay2 x0 x1 xs0) x2 x3) _ ?_ y (cover0_C_4 c i arg2 harg2 arg3 harg3 arg4 harg4 arg5 harg5 arg6 harg6 arg7 harg7 arg8 harg8 hc0 hc1 x0 x1 x2 x3 xs0 y)
  unfold kernelRun0_C
  dsimp only
  sl_unfold_words
  simp only [View.readAt_eq_ld, harg2.read_unread, harg3.read_unread, harg4.read_unread, harg5.read_unread, harg8.read_unread,
    View.ld_unit_zero (S := S512x256) hz2, View.ld_unit_zero (S := S4096x256) hz2,
    View.ld_unit_zero (S := S512x4096) hz2, View.ld_unit_zero (S := S4096) hz1]
  intro p hp
  rcases List.mem_cons.mp hp with rfl | hp
  · intro x
    refine piece3_h (k0_pay2 x0 x1 xs0) x2 x3 _ _ _ _ _ ?_ ?_ ?_ ?_ ?_ x
    all_goals first | exact acc_slice _ _ _ _ _ | exact ld_cell _ _ _
  rcases List.mem_cons.mp hp with rfl | hp
  · intro x
    refine piece2_h (k0_pay2 x0 x1 xs0) x2 x3 _ _ _ _ _ ?_ ?_ ?_ ?_ ?_ x
    all_goals first | exact acc_slice _ _ _ _ _ | exact ld_cell _ _ _
  rcases List.mem_cons.mp hp with rfl | hp
  · intro x
    refine piece1_h (k0_pay2 x0 x1 xs0) x2 x3 _ _ _ _ _ ?_ ?_ ?_ ?_ ?_ x
    all_goals first | exact acc_slice _ _ _ _ _ | exact ld_cell _ _ _
  rcases List.mem_cons.mp hp with rfl | hp
  · intro x
    refine piece0_h (k0_pay2 x0 x1 xs0) x2 x3 _ _ _ _ _ ?_ ?_ ?_ ?_ ?_ x
    all_goals first | exact acc_slice _ _ _ _ _ | exact ld_cell _ _ _
  exact absurd hp List.not_mem_nil

/-- … and the block of new cell states in the second output's buffer. -/
theorem outC5_eq (c : Dev nD) (i : grid0.Coords) (arg2 : Memref sig .tc .vmem S512x256 .bf16) (harg2 : arg2.IsWhole) (arg3 : Memref sig .tc .vmem S4096x256 .bf16) (harg3 : arg3.IsWhole) (arg4 : Memref sig .tc .vmem S4096 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x4096 .f32) (harg8 : arg8.IsWhole) (hc0 : ¬cond0_0 i) (hc1 : cond0_1 i)
    (x0 : Vec Ideal S512x256 .bf16) (x1 : Vec Ideal S4096x256 .bf16) (x2 : Vec Ideal S4096 .f32) (x3 : Vec Ideal S512x1024 .f32) (xs0 : Vec Ideal S512x4096 .f32) :
    out0_C_5 c i arg2 harg2 arg3 harg3 arg4 harg4 arg5 harg5 arg6 harg6 arg7 harg7 arg8 harg8 hc0 hc1 x0 x1 x2 x3 xs0 = cBlk (k0_pay2 x0 x1 xs0) x2 x3 := by
  unfold out0_C_5
  rw [View.read_writes_eq_canon _ _ _ (cover0_C_5 c i arg2 harg2 arg3 harg3 arg4 harg4 arg5 harg5 arg6 harg6 arg7 harg7 arg8 harg8 hc0 hc1 x0 x1 x2 x3 xs0)]
  funext y
  refine View.canon_apply_of_pieces (cBlk (k0_pay2 x0 x1 xs0) x2 x3) _ ?_ y (cover0_C_5 c i arg2 harg2 arg3 harg3 arg4 harg4 arg5 harg5 arg6 harg6 arg7 harg7 arg8 harg8 hc0 hc1 x0 x1 x2 x3 xs0 y)
  unfold kernelRun0_C
  dsimp only
  sl_unfold_words
  simp only [View.readAt_eq_ld, harg2.read_unread, harg3.read_unread, harg4.read_unread, harg5.read_unread, harg8.read_unread,
    View.ld_unit_zero (S := S512x256) hz2, View.ld_unit_zero (S := S4096x256) hz2,
    View.ld_unit_zero (S := S512x4096) hz2, View.ld_unit_zero (S := S4096) hz1]
  intro p hp
  rcases List.mem_cons.mp hp with rfl | hp
  · intro x
    refine piece3_c (k0_pay2 x0 x1 xs0) x2 x3 _ _ _ _ ?_ ?_ ?_ ?_ x
    all_goals first | exact acc_slice _ _ _ _ _ | exact ld_cell _ _ _
  rcases List.mem_cons.mp hp with rfl | hp
  · intro x
    refine piece2_c (k0_pay2 x0 x1 xs0) x2 x3 _ _ _ _ ?_ ?_ ?_ ?_ x
    all_goals first | exact acc_slice _ _ _ _ _ | exact ld_cell _ _ _
  rcases List.mem_cons.mp hp with rfl | hp
  · intro x
    refine piece1_c (k0_pay2 x0 x1 xs0) x2 x3 _ _ _ _ ?_ ?_ ?_ ?_ x
    all_goals first | exact acc_slice _ _ _ _ _ | exact ld_cell _ _ _
  rcases List.mem_cons.mp hp with rfl | hp
  · intro x
    refine piece0_c (k0_pay2 x0 x1 xs0) x2 x3 _ _ _ _ ?_ ?_ ?_ ?_ x
    all_goals first | exact acc_slice _ _ _ _ _ | exact ld_cell _ _ _
  exact absurd hp List.not_mem_nil

end Cert.KernelIdeal.Out

end
-- ==== Proof.KernelHost.lean ====
/-
  What the kernel's two matrix operands hold when the region is entered.

  Before the region the program joins the inputs with the hidden states along the columns, and passes both that
  `[2048, 2048]` array and the `[4096, 2048]` weights through the fixed-point quantizer (scale by 32, round to nearest
  with ties to even, clamp to `[-128, 127]`, scale by `2⁻⁵`), then narrows them to bf16, which is the identity on the
  extended reals. So every entry of the first operand is `Q` of the joined array's entry, and every entry of the second
  is `Q` of the weight.
-/
import proofs.«170357_j49331994362494_2_alg».proof.Proof.Gen.KernelIdeal.Frame
import proofs.«170357_j49331994362494_2_alg».proof.Proof.Spec
import Idealize.ShloMosaic.Lib.StableHlo.Run
import Idealize.ShloMosaic.Lib.Pipeline.Value

noncomputable section

namespace Cert.KernelIdeal.HostValue

open Cert.KernelIdeal Cert.KernelIdeal.Gen Idealize.ShloMosaic Idealize.ShloMosaic.TcCoe Idealize.SL.Sem
open Idealize.ShloMosaic.StableHlo Idealize.ShloMosaic.ValueIdx Cert.LstmSpec

variable (m : (ℓ : Loc nD τ sig) → Buf (Elt Ideal) ℓ)

/-- The inputs joined with the hidden states along the columns. -/
def xhArr (c : Dev nD) : FVec Ideal S2048x2048 .f32 :=
  concatenate S2048x2048 1 [⟨S2048x1024, m ((c : Thread nD τ).loc main_arg0)⟩, ⟨S2048x1024, m ((c : Thread nD τ).loc main_arg1)⟩]
    concatenates_S2048x1024_S2048x1024_S2048x2048_d1

/-- The first matrix operand as the region finds it. -/
def xq (c : Dev nD) : FVec Ideal S2048x2048 .bf16 := V m c main_v7

/-- The second matrix operand as the region finds it. -/
def wq (c : Dev nD) : FVec Ideal S4096x2048 .bf16 := V m c main_v14

/-- Every entry of the first operand is the quantized entry of the joined array. -/
theorem xq_apply (c : Dev nD) (i : S2048x2048.Idx) : xq m c i = Q (xhArr m c i) := by
  unfold xq
  dsimp only [Gen.V]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  unfold Q xhArr
  rfl

/-- Every entry of the second operand is the quantized weight. -/
theorem wq_apply (c : Dev nD) (i : S4096x2048.Idx) : wq m c i = Q (m ((c : Thread nD τ).loc main_arg3) i) := by
  unfold wq
  dsimp only [Gen.V]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  unfold Q
  rfl

end Cert.KernelIdeal.HostValue

end
-- ==== Proof.KernelBlocks.lean ====
/-
  The blocks the pipeline hands the body, as pieces of the arrays.

  The grid has 4 × 8 points; point `t` works on row block `t / 8` (512 rows) and, of the contraction, on stretch
  `t % 8` (256 columns). Its block of the first operand is rows `512·(t/8) + r`, columns `256·(t%8) + kk` of the
  quantized joined inputs; its block of the second operand is all 4096 rows and the same 256 columns of the
  quantized weights; the bias block is the whole bias; the cell-state block is the row block's 512 rows.
-/
import proofs.«170357_j49331994362494_2_alg».proof.Proof.KernelHost

noncomputable section

namespace Cert.KernelIdeal.Blocks

open Cert.KernelIdeal Cert.KernelIdeal.Gen Idealize.ShloMosaic Idealize.ShloMosaic.TcCoe Idealize.SL.Sem
open Idealize.ShloMosaic.ValueIdx Cert.KernelIdeal.HostValue

variable (m : (ℓ : Loc nD τ sig) → Buf (Elt Ideal) ℓ)

/-- A grid point's position is below 32. -/
theorem tlt (t : Fin cfg0.N) : t.val < 32 := lt_of_lt_of_eq t.isLt N_0

/-- The row of the arrays that row `r` of the block at grid position `n` is: row block `n / 8`, 512 rows each. -/
def rowOf (n : Nat) (h : n < 32) (r : Fin 512) : Fin 2048 := ⟨512 * (n / 8) + r.val, by have := r.isLt; omega⟩

/-- The first operand's block index: row block `t / 8`, stretch `t % 8`. -/
theorem idx0 : ∀ t : Fin cfg0.N, win0_0.index t (0 : Fin 2) = t.val / 8 ∧ win0_0.index t (1 : Fin 2) = t.val % 8 :=
  (by decide +kernel : ∀ t : Fin grid0.N, win0_0.index t (0 : Fin 2) = t.val / 8 ∧ win0_0.index t (1 : Fin 2) = t.val % 8)
/-- The second operand's block index: all rows, stretch `t % 8`. -/
theorem idx1 : ∀ t : Fin cfg0.N, win0_1.index t (0 : Fin 2) = 0 ∧ win0_1.index t (1 : Fin 2) = t.val % 8 :=
  (by decide +kernel : ∀ t : Fin grid0.N, win0_1.index t (0 : Fin 2) = 0 ∧ win0_1.index t (1 : Fin 2) = t.val % 8)
/-- The bias block never moves. -/
theorem idx2 : ∀ t : Fin cfg0.N, win0_2.index t (0 : Fin 1) = 0 :=
  (by decide +kernel : ∀ t : Fin grid0.N, win0_2.index t (0 : Fin 1) = 0)
/-- The cell-state block index: row block `t / 8`, all columns. -/
theorem idx3 : ∀ t : Fin cfg0.N, win0_3.index t (0 : Fin 2) = t.val / 8 ∧ win0_3.index t (1 : Fin 2) = 0 :=
  (by decide +kernel : ∀ t : Fin grid0.N, win0_3.index t (0 : Fin 2) = t.val / 8 ∧ win0_3.index t (1 : Fin 2) = 0)
/-- The two outputs' block index: row block `t / 8`, all columns. -/
theorem idx4 : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)
theorem idx5 : ∀ t : Fin cfg0.N, win0_5.index t (0 : Fin 2) = t.val / 8 ∧ win0_5.index t (1 : Fin 2) = 0 :=
  (by decide +kernel : ∀ t : Fin grid0.N, win0_5.index t (0 : Fin 2) = t.val / 8 ∧ win0_5.index t (1 : Fin 2) = 0)

/-- The first operand's block at point `t`, entry `(r, kk)`: the quantized joined inputs at row `512·(t/8) + r`,
    column `256·(t%8) + kk`. -/
theorem iblk0_apply (c : Dev nD) (t : Fin cfg0.N) (r : Fin 512) (kk : Fin 256) :
    (iblk m c 0 t : Vec Ideal S512x256 .bf16) (ix2 r kk)
      = xq m c (ix2 (rowOf t.val (tlt t) r) (⟨256 * (t.val % 8) + kk.val, by have := kk.isLt; omega⟩ : Fin 2048)) := by
  unfold iblk xq
  rw [View.read_apply]
  show V m c main_v7 _ = V m c main_v7 _
  congr 1
  funext a
  apply Fin.ext
  match a with
  | ⟨0, _⟩ => show win0_0.index t 0 * 512 + 1 * r.val = 512 * (t.val / 8) + r.val; rw [(idx0 t).1]; omega
  | ⟨1, _⟩ => show win0_0.index t 1 * 256 + 1 * kk.val = 256 * (t.val % 8) + kk.val; rw [(idx0 t).2]; omega

/-- The second operand's block at point `t`, entry `(n, kk)`: the quantized weight at row `n`, column `256·(t%8) + kk`. -/
theorem iblk1_apply (c : Dev nD) (t : Fin cfg0.N) (n : Fin 4096) (kk : Fin 256) :
    (iblk m c 1 t : Vec Ideal S4096x256 .bf16) (ix2 n kk)
      = wq m c (ix2 n (⟨256 * (t.val % 8) + kk.val, by have := kk.isLt; omega⟩ : Fin 2048)) := by
  unfold iblk wq
  rw [View.read_apply]
  show V m c main_v14 _ = V m c main_v14 _
  congr 1
  funext a
  apply Fin.ext
  match a with
  | ⟨0, _⟩ => show win0_1.index t 0 * 4096 + 1 * n.val = n.val; rw [(idx1 t).1]; omega
  | ⟨1, _⟩ => show win0_1.index t 1 * 256 + 1 * kk.val = 256 * (t.val % 8) + kk.val; rw [(idx1 t).2]; omega

/-- The bias block is the bias. -/
theorem iblk2_apply (c : Dev nD) (t : Fin cfg0.N) (n : Fin 4096) :
    (iblk m c 2 t : Vec Ideal S4096 .f32) (ix1 n) = m ((c : Thread nD τ).loc main_arg4) (ix1 n) := by
  unfold iblk
  rw [View.read_apply, ← V_main_arg4 m c]
  show V m c main_arg4 _ = V m c main_arg4 _
  congr 1
  funext a
  apply Fin.ext
  match a with
  | ⟨0, _⟩ => show win0_2.index t 0 * 4096 + 1 * n.val = n.val; rw [idx2 t]; omega

/-- The cell-state block at point `t`, entry `(r, y)`: the cell state at row `512·(t/8) + r`, column `y`. -/
theorem iblk3_apply (c : Dev nD) (t : Fin cfg0.N) (r : Fin 512) (y : Fin 1024) :
    (iblk m c 3 t : Vec Ideal S512x1024 .f32) (ix2 r y)
      = m ((c : Thread nD τ).loc main_arg2) (ix2 (rowOf t.val (tlt t) r) y) := by
  unfold iblk
  rw [View.read_apply, ← V_main_arg2 m c]
  show V m c main_arg2 _ = V m c main_arg2 _
  congr 1
  funext a
  apply Fin.ext
  match a with
  | ⟨0, _⟩ => show win0_3.index t 0 * 512 + 1 * r.val = 512 * (t.val / 8) + r.val; rw [(idx3 t).1]; omega
  | ⟨1, _⟩ => show win0_3.index t 1 * 1024 + 1 * y.val = y.val; rw [(idx3 t).2]; omega

end Cert.KernelIdeal.Blocks

end
-- ==== Proof.KernelAcc.lean ====
/-
  What the accumulator holds after each grid point.

  Fix a row `R` of the joined inputs and a row `n` of the weights, and write `g k = xq (R, k) · wq (n, k)` for the
  product at contraction position `k`. The eight points of a row block take the contraction's eight stretches of 256
  positions in order: the first stores zero and adds stretch 0, each later one adds its own stretch to what the point
  before left. So after the point at position `j` of its row block the accumulator's entry is the sum of stretches
  `0, …, j`, and after the last one it is the whole contraction `Σ k, g k`.
-/
import proofs.«170357_j49331994362494_2_alg».proof.Proof.KernelBlocks
import proofs.«170357_j49331994362494_2_alg».proof.Proof.KernelScratch
import proofs.«170357_j49331994362494_2_alg».proof.Proof.KernelLayout

noncomputable section

open scoped BigOperators

namespace Cert.KernelIdeal.Acc

open Cert.KernelIdeal Cert.KernelIdeal.Gen Idealize.ShloMosaic Idealize.ShloMosaic.TcCoe Idealize.SL.Sem
open Idealize.ShloMosaic.ValueIdx Cert.KernelIdeal.HostValue Cert.KernelIdeal.Blocks Cert.KernelIdeal.Scratch
open Cert.KernelIdeal.Layout Cert.LstmSpec

variable (m : (ℓ : Loc nD τ sig) → Buf (Elt Ideal) ℓ)

/-- The product at contraction position `k`, for row `R` of the first operand and row `n` of the second. -/
def prod (c : Dev nD) (R : Fin 2048) (n : Fin 4096) (k : Fin 2048) : EReal := xq m c (ix2 R k) * wq m c (ix2 n k)

/-- The sum of a function over stretch `kb` of the contraction: positions `256·kb, …, 256·kb + 255`. -/
def stretch (g : Fin 2048 → EReal) (kb : Nat) : EReal :=
  ∑ kk : Fin 256, (if h : 256 * kb + kk.val < 2048 then g ⟨256 * kb + kk.val, h⟩ else 0)

/-- The accumulate step at an entry: what was there plus the point's product of block rows. -/
theorem pay2_apply (x0 : Vec Ideal S512x256 .bf16) (x1 : Vec Ideal S4096x256 .bf16) (a : Vec Ideal S512x4096 .f32)
    (r : Fin 512) (n : Fin 4096) :
    k0_pay2 x0 x1 a (ix2 r n) = a (ix2 r n) + ∑ kk : Fin 256, x0 (ix2 r kk) * x1 (ix2 n kk) := by
  unfold k0_pay2
  simp only [shapeCast_self]
  rw [addf_apply, matmul_nt]

/-- The zero block's entries are zero. -/
theorem pay1_apply (j : S512x4096.Idx) : k0_pay1 (F := Ideal) j = 0 := by
  unfold k0_pay1
  simp only [shapeCast_self]
  exact Ideal.ofBits_zero_f32

/-- A point's product of block rows is its stretch of the contraction: stated for any two blocks that read the
    operands at the point's rows and columns. -/
theorem blocks_stretch (c : Dev nD) (t : Fin cfg0.N) (x0 : Vec Ideal S512x256 .bf16) (x1 : Vec Ideal S4096x256 .bf16)
    (hx0 : ∀ (r : Fin 512) (kk : Fin 256), x0 (ix2 r kk)
      = xq m c (ix2 (rowOf t.val (tlt t) r) (⟨256 * (t.val % 8) + kk.val, by have := kk.isLt; omega⟩ : Fin 2048)))
    (hx1 : ∀ (n : Fin 4096) (kk : Fin 256), x1 (ix2 n kk)
      = wq m c (ix2 n (⟨256 * (t.val % 8) + kk.val, by have := kk.isLt; omega⟩ : Fin 2048)))
    (r : Fin 512) (n : Fin 4096) :
    ∑ kk : Fin 256, x0 (ix2 r kk) * x1 (ix2 n kk) = stretch (prod m c (rowOf t.val (tlt t) r) n) (t.val % 8) := by
  unfold stretch
  refine Finset.sum_congr rfl fun kk _ => ?_
  have hk : 256 * (t.val % 8) + kk.val < 2048 := by have := kk.isLt; omega
  rw [dif_pos hk, hx0, hx1]
  rfl

/-- At the first point of a row block the accumulator ends at stretch 0. -/
theorem stepA (c : Dev nD) (t : Fin cfg0.N) (h0 : t.val % 8 = 0) (r : Fin 512) (n : Fin 4096) :
    (outsAt0 m c t.val t.isLt).2.2 (ix2 r n) = stretch (prod m c (rowOf t.val (tlt t) r) n) 0 := by
  have h1 : ¬t.val % 8 = 7 := by omega
  rw [outsAt0_A m c t h0 h1]
  dsimp only
  rw [sout_A, pay2_apply, pay1_apply, zero_add,
    blocks_stretch m c t (iblk m c 0 t) (iblk m c 1 t) (iblk0_apply m c t) (iblk1_apply m c t), h0]

/-- At every other point it adds its own stretch to what the point before left. -/
theorem stepBC (c : Dev nD) (t : Fin cfg0.N) (h0 : ¬t.val % 8 = 0) (r : Fin 512) (n : Fin 4096) :
    (outsAt0 m c t.val t.isLt).2.2 (ix2 r n)
      = (outsAt0 m c (t.val - 1) (Nat.lt_of_le_of_lt (Nat.sub_le _ _) t.isLt)).2.2 (ix2 r n)
        + stretch (prod m c (rowOf t.val (tlt t) r) n) (t.val % 8) := by
  by_cases h1 : t.val % 8 = 7
  · rw [outsAt0_C m c t h0 h1]
    dsimp only
    rw [sout_C, pay2_apply, blocks_stretch m c t (iblk m c 0 t) (iblk m c 1 t) (iblk0_apply m c t) (iblk1_apply m c t)]
  · rw [outsAt0_B m c t h0 h1]
    dsimp only
    rw [sout_B, pay2_apply, blocks_stretch m c t (iblk m c 0 t) (iblk m c 1 t) (iblk0_apply m c t) (iblk1_apply m c t)]

/-- After the point at position `n` the accumulator's entry is the sum of stretches `0, …, n % 8`. -/
theorem acc_eq (c : Dev nD) : ∀ (n : ℕ) (h : n < cfg0.N) (r : Fin 512) (nn : Fin 4096),
    (outsAt0 m c n h).2.2 (ix2 r nn)
      = ∑ kb ∈ Finset.range (n % 8 + 1), stretch (prod m c (rowOf n (tlt ⟨n, h⟩) r) nn) kb := by
  intro n
  induction n using Nat.strong_induction_on with
  | _ n ih =>
    intro h r nn
    have hN : n < 32 := tlt ⟨n, h⟩
    by_cases h0 : n % 8 = 0
    · rw [stepA m c ⟨n, h⟩ h0 r nn, h0]
      simp only [zero_add, Finset.sum_range_one]
    · have hn : n - 1 < n := by omega
      have hR : rowOf (n - 1) (by omega) r = rowOf n hN r := Fin.ext (by unfold rowOf; show 512 * ((n - 1) / 8) + r.val = 512 * (n / 8) + r.val; omega)
      have hm : (n - 1) % 8 + 1 = n % 8 := by omega
      rw [stepBC m c ⟨n, h⟩ h0 r nn]
      show (outsAt0 m c (n - 1) _).2.2 (ix2 r nn) + _ = _
      rw [ih (n - 1) hn _ r nn, hR, hm, Finset.sum_range_succ]

/-- After the last point of a row block the accumulator's entry is the whole contraction. -/
theorem acc_last (c : Dev nD) (t : Fin cfg0.N) (h1 : t.val % 8 = 7) (r : Fin 512) (nn : Fin 4096) :
    (outsAt0 m c t.val t.isLt).2.2 (ix2 r nn) = ∑ k : Fin 2048, prod m c (rowOf t.val (tlt t) r) nn k := by
  rw [acc_eq m c t.val t.isLt r nn, h1, sum_blocks]
  rfl

end Cert.KernelIdeal.Acc

end
-- ==== Proof.KernelPoint.lean ====
/-
  What the two outputs' staging buffers hold after the last point of a row block: entry `(r, y)` of the first is the
  new hidden state, and of the second the new cell state, of row `512·(t/8) + r` and column `y`.

  At that point the accumulator holds the whole contraction of the row with each weight row, which is the
  specification's `dot`; the bias block is the bias and the cell-state block is the row block of the cell states; so the
  block functions `hBlk` and `cBlk` the epilogue leaves are the specification's `hnew` and `cnew` there.
-/
import proofs.«170357_j49331994362494_2_alg».proof.Proof.KernelOut
import proofs.«170357_j49331994362494_2_alg».proof.Proof.KernelAcc
import proofs.«170357_j49331994362494_2_alg».proof.Proof.KernelBlocks
import proofs.«170357_j49331994362494_2_alg».proof.Proof.Spec

noncomputable section

open scoped BigOperators

namespace Cert.KernelIdeal.Point

open Cert.KernelIdeal Cert.KernelIdeal.Gen Idealize.ShloMosaic Idealize.ShloMosaic.TcCoe Idealize.SL.Sem
open Idealize.ShloMosaic.ValueIdx Cert.KernelIdeal.HostValue Cert.KernelIdeal.Blocks Cert.LstmSpec
open Cert.KernelIdeal.Cell Cert.KernelIdeal.Out Cert.KernelIdeal.Acc Cert.KernelIdeal.Scratch

section Spec
variable (P : Vec Ideal S512x4096 .f32) (bv : Vec Ideal S4096 .f32) (cb : Vec Ideal S512x1024 .f32)
variable (xh : FVec Ideal SXH .f32) (W : FVec Ideal SW .f32) (B : FVec Ideal SB .f32) (C : FVec Ideal SC .f32)
variable (R : Fin 2048) (r : Fin 512)

/-- When the accumulated block's row `r` is the contraction of row `R`, the bias block the bias and the cell-state
    block's row `r` the cell states' row `R`, the block of new cell states is the specification's at row `R`. -/
theorem cBlk_eq_cnew (hP : ∀ n : Fin 4096, P (ix2 r n) = dot xh W R n) (hb : ∀ n : Fin 4096, bv (ix1 n) = B (ix1 n))
    (hc : ∀ y : Fin 1024, cb (ix2 r y) = C (ix2 R y)) (y : Fin 1024) :
    cBlk P bv cb (ix2 r y) = cnew xh W B C R y := by
  have hpre : ∀ n : Fin 4096, preB P bv r n = pre xh W B R n := fun n => by unfold preB pre; rw [hP, hb]
  show cB P bv cb r y _ _ _ = _
  unfold cB cnew
  rw [hpre, hpre, hpre, hc]

/-- … and the block of new hidden states the specification's. -/
theorem hBlk_eq_hnew (hP : ∀ n : Fin 4096, P (ix2 r n) = dot xh W R n) (hb : ∀ n : Fin 4096, bv (ix1 n) = B (ix1 n))
    (hc : ∀ y : Fin 1024, cb (ix2 r y) = C (ix2 R y)) (y : Fin 1024) :
    hBlk P bv cb (ix2 r y) = hnew xh W B C R y := by
  have hpre : ∀ n : Fin 4096, preB P bv r n = pre xh W B R n := fun n => by unfold preB pre; rw [hP, hb]
  show hB P bv cb r y _ _ _ _ = _
  unfold hB cB hnew cnew
  rw [hpre, hpre, hpre, hpre, hc]

end Spec

variable (m : (ℓ : Loc nD τ sig) → Buf (Elt Ideal) ℓ)

/-- After the last point the accumulator's row `r` is the specification's contraction of row `512·(t/8) + r`. -/
theorem acc_dot (c : Dev nD) (t : Fin cfg0.N) (h1 : t.val % 8 = 7) (r : Fin 512) (n : Fin 4096) :
    (outsAt0 m c t.val t.isLt).2.2 (ix2 r n)
      = dot (xhArr m c) (m ((c : Thread nD τ).loc main_arg3)) (rowOf t.val (tlt t) r) n := by
  rw [acc_last m c t h1 r n]
  unfold dot
  refine Finset.sum_congr rfl fun k _ => ?_
  unfold prod term
  rw [xq_apply, wq_apply]

/-- Entry `(r, y)` of the first output's buffer after the last point of a row block: the point's epilogue reads the
    accumulator its own accumulate step has just stored, which is what the point leaves there. -/
theorem out4_point (c : Dev nD) (t : Fin cfg0.N) (h1 : t.val % 8 = 7) (r : Fin 512) (y : Fin 1024) :
    (outsAt0 m c t.val t.isLt).1 (ix2 r y)
      = hnew (xhArr m c) (m ((c : Thread nD τ).loc main_arg3)) (m ((c : Thread nD τ).loc main_arg4))
          (m ((c : Thread nD τ).loc main_arg2)) (rowOf t.val (tlt t) r) y := by
  have h0 : ¬t.val % 8 = 0 := by omega
  have e : (outsAt0 m c t.val t.isLt).1
      = hBlk (outsAt0 m c t.val t.isLt).2.2 (iblk m c 2 t) (iblk m c 3 t) := by
    rw [outsAt0_C m c t h0 h1]
    dsimp only
    rw [outC4_eq, sout_C]
  rw [e]
  exact hBlk_eq_hnew _ _ _ _ _ _ _ _ r (fun n => acc_dot m c t h1 r n) (fun n => iblk2_apply m c t n)
    (fun y => iblk3_apply m c t r y) y

/-- Entry `(r, y)` of the second output's buffer after the last point of a row block. -/
theorem out5_point (c : Dev nD) (t : Fin cfg0.N) (h1 : t.val % 8 = 7) (r : Fin 512) (y : Fin 1024) :
    (outsAt0 m c t.val t.isLt).2.1 (ix2 r y)
      = cnew (xhArr m c) (m ((c : Thread nD τ).loc main_arg3)) (m ((c : Thread nD τ).loc main_arg4))
          (m ((c : Thread nD τ).loc main_arg2)) (rowOf t.val (tlt t) r) y := by
  have h0 : ¬t.val % 8 = 0 := by omega
  have e : (outsAt0 m c t.val t.isLt).2.1
      = cBlk (outsAt0 m c t.val t.isLt).2.2 (iblk m c 2 t) (iblk m c 3 t) := by
    rw [outsAt0_C m c t h0 h1]
    dsimp only
    rw [outC5_eq, sout_C]
  rw [e]
  exact cBlk_eq_cnew _ _ _ _ _ _ _ _ r (fun n => acc_dot m c t h1 r n) (fun n => iblk2_apply m c t n)
    (fun y => iblk3_apply m c t r y) y

end Cert.KernelIdeal.Point

end
-- ==== Proof.KernelValue.lean ====
/-
  From the blocks the grid points write back to the two output arrays.

  The grid has 4 × 8 points; the two outputs' blocks are the row blocks of 512 rows, all 1024 columns, and a block is
  written back at the last point of its row block, the points `t` with `t % 8 = 7`. At such a point entry `(r, y)` of
  what is written back is the new hidden state (first output) or the new cell state (second output) of row
  `512·(t/8) + r` and column `y`, which is where the block's entry `(r, y)` sits in the array: so the block written
  back is that row block of the whole array of new states. Row `R` of the array lies in row block `R / 512`, whose last
  point is `8·(R/512) + 7`: every index is covered, and the arrays after the run are the arrays of new hidden states
  and of new cell states of the launched arguments.
-/
import proofs.«170357_j49331994362494_2_alg».proof.Proof.Gen.KernelIdeal.Value
import proofs.«170357_j49331994362494_2_alg».proof.Proof.KernelPoint
import Idealize.ShloMosaic.Lib.Pipeline.Value

noncomputable section

namespace Cert.KernelIdeal.RunValue

open Cert.KernelIdeal Cert.KernelIdeal.Gen Idealize.ShloMosaic Idealize.ShloMosaic.TcCoe Idealize.SL.Sem
open Idealize.ShloMosaic.Pipeline (Dat)
open Idealize.ShloMosaic.ValueIdx Cert.KernelIdeal.HostValue Cert.KernelIdeal.Blocks Cert.LstmSpec

variable (m : (ℓ : Loc nD τ sig) → Buf (Elt Ideal) ℓ) (ρ : Dev nD → PrngReg)

/-- The array of new hidden states of the launched arguments. -/
abbrev resH (c : Dev nD) : FVec Ideal S2048x1024 .f32 :=
  Gh (xhArr m c) (m ((c : Thread nD τ).loc main_arg3)) (m ((c : Thread nD τ).loc main_arg4))
    (m ((c : Thread nD τ).loc main_arg2))

/-- The array of new cell states of the launched arguments. -/
abbrev resC (c : Dev nD) : FVec Ideal S2048x1024 .f32 :=
  Gc (xhArr m c) (m ((c : Thread nD τ).loc main_arg3)) (m ((c : Thread nD τ).loc main_arg4))
    (m ((c : Thread nD τ).loc main_arg2))

/-- What a last point of a row block writes back to the first output is that row block of the new hidden states. -/
theorem flushed4_eq (c : Dev nD) (t : Fin cfg0.N) (hf : (cfg0.win 4).flush t = true) :
    (dats m 0 c).flushed 4 t = ((cfg0.win 4).blk t).view.read (Elt Ideal) (resH m c) := by
  have h1 : t.val % 8 = 7 := (flush0_4 t).mp hf
  rw [Value.flushed4]
  funext x
  have hx0 : (x 0).val < 512 := (x 0).isLt
  have hx1 : (x 1).val < 1024 := (x 1).isLt
  rw [View.read_apply]
  have el : (cfg0.win 4).xinj (grid0.coords t) x = ix2 (⟨(x 0).val, hx0⟩ : Fin 512) (⟨(x 1).val, hx1⟩ : Fin 1024) := by
    funext a
    apply Fin.ext
    match a with
    | ⟨0, _⟩ => rfl
    | ⟨1, _⟩ => rfl
  have er : ((cfg0.win 4).blk t).view.emb x
      = ix2 (rowOf t.val (tlt t) ⟨(x 0).val, hx0⟩) (⟨(x 1).val, hx1⟩ : Fin 1024) := by
    funext a
    apply Fin.ext
    match a with
    | ⟨0, _⟩ => show win0_4.index t 0 * 512 + 1 * (x 0).val = 512 * (t.val / 8) + (x 0).val; rw [(idx4 t).1]; omega
    | ⟨1, _⟩ => show win0_4.index t 1 * 1024 + 1 * (x 1).val = (x 1).val; rw [(idx4 t).2]; omega
  show (outsAt0 m c t.val t.isLt).1 ((cfg0.win 4).xinj (grid0.coords t) x) = resH m c (((cfg0.win 4).blk t).view.emb x)
  rw [el, er]
  exact Point.out4_point m c t h1 _ _

/-- What a last point of a row block writes back to the second output is that row block of the new cell states. -/
theorem flushed5_eq (c : Dev nD) (t : Fin cfg0.N) (hf : (cfg0.win 5).flush t = true) :
    (dats m 0 c).flushed 5 t = ((cfg0.win 5).blk t).view.read (Elt Ideal) (resC m c) := by
  have h1 : t.val % 8 = 7 := (flush0_5 t).mp hf
  rw [Value.flushed5]
  funext x
  have hx0 : (x 0).val < 512 := (x 0).isLt
  have hx1 : (x 1).val < 1024 := (x 1).isLt
  rw [View.read_apply]
  have el : (cfg0.win 5).xinj (grid0.coords t) x = ix2 (⟨(x 0).val, hx0⟩ : Fin 512) (⟨(x 1).val, hx1⟩ : Fin 1024) := by
    funext a
    apply Fin.ext
    match a with
    | ⟨0, _⟩ => rfl
    | ⟨1, _⟩ => rfl
  have er : ((cfg0.win 5).blk t).view.emb x
      = ix2 (rowOf t.val (tlt t) ⟨(x 0).val, hx0⟩) (⟨(x 1).val, hx1⟩ : Fin 1024) := by
    funext a
    apply Fin.ext
    match a with
    | ⟨0, _⟩ => show win0_5.index t 0 * 512 + 1 * (x 0).val = 512 * (t.val / 8) + (x 0).val; rw [(idx5 t).1]; omega
    | ⟨1, _⟩ => show win0_5.index t 1 * 1024 + 1 * (x 1).val = (x 1).val; rw [(idx5 t).2]; omega
  show (outsAt0 m c t.val t.isLt).2.1 ((cfg0.win 5).xinj (grid0.coords t) x) = resC m c (((cfg0.win 5).blk t).view.emb x)
  rw [el, er]
  exact Point.out5_point m c t h1 _ _

/-- An index of the first output array is in point `t`'s block iff each coordinate is in the block's range on its
    axis. -/
theorem mem_blk4 (t : Fin cfg0.N) (i : S2048x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v15_0).slice (win0_4.rect t)).set ↔ _
  rw [View.set_slice_whole, Rect.mem_set_unit]
  exact Iff.rfl

/-- Row `R` of the first output array is written back by the last point of its row block, point `8·(R / 512) + 7`. -/
theorem cover4 (i : S2048x1024.Idx) :
    ∃ t : Fin cfg0.N, (cfg0.win 4).flush t = true ∧ i ∈ ((cfg0.win 4).blk t).view.set := by
  have hi0 : (i 0).val < 2048 := (i 0).isLt
  have hi1 : (i 1).val < 1024 := (i 1).isLt
  have hN : cfg0.N = 32 := N_0
  have hb : 8 * ((i 0).val / 512) + 7 < cfg0.N := by rw [hN]; omega
  have ht : (⟨8 * ((i 0).val / 512) + 7, hb⟩ : Fin cfg0.N).val = 8 * ((i 0).val / 512) + 7 := rfl
  refine ⟨⟨8 * ((i 0).val / 512) + 7, hb⟩, (flush0_4 _).mpr (by rw [ht]; omega), ?_⟩
  rw [mem_blk4]
  intro a
  match a with
  | ⟨0, _⟩ =>
    show win0_4.index ⟨8 * ((i 0).val / 512) + 7, hb⟩ 0 * 512 ≤ (i 0).val
      ∧ (i 0).val < win0_4.index ⟨8 * ((i 0).val / 512) + 7, hb⟩ 0 * 512 + 512
    rw [(idx4 _).1, ht]; omega
  | ⟨1, _⟩ =>
    show win0_4.index ⟨8 * ((i 0).val / 512) + 7, hb⟩ 1 * 1024 ≤ (i 1).val
      ∧ (i 1).val < win0_4.index ⟨8 * ((i 0).val / 512) + 7, hb⟩ 1 * 1024 + 1024
    rw [(idx4 _).2]; omega

/-- An index of the second output array is in point `t`'s block iff each coordinate is in the block's range on its
    axis. -/
theorem mem_blk5 (t : Fin cfg0.N) (i : S2048x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v15_1).slice (win0_5.rect t)).set ↔ _
  rw [View.set_slice_whole, Rect.mem_set_unit]
  exact Iff.rfl

/-- Row `R` of the second output array is written back by the last point of its row block, point `8·(R / 512) + 7`. -/
theorem cover5 (i : S2048x1024.Idx) :
    ∃ t : Fin cfg0.N, (cfg0.win 5).flush t = true ∧ i ∈ ((cfg0.win 5).blk t).view.set := by
  have hi0 : (i 0).val < 2048 := (i 0).isLt
  have hi1 : (i 1).val < 1024 := (i 1).isLt
  have hN : cfg0.N = 32 := N_0
  have hb : 8 * ((i 0).val / 512) + 7 < cfg0.N := by rw [hN]; omega
  have ht : (⟨8 * ((i 0).val / 512) + 7, hb⟩ : Fin cfg0.N).val = 8 * ((i 0).val / 512) + 7 := rfl
  refine ⟨⟨8 * ((i 0).val / 512) + 7, hb⟩, (flush0_5 _).mpr (by rw [ht]; omega), ?_⟩
  rw [mem_blk5]
  intro a
  match a with
  | ⟨0, _⟩ =>
    show win0_5.index ⟨8 * ((i 0).val / 512) + 7, hb⟩ 0 * 512 ≤ (i 0).val
      ∧ (i 0).val < win0_5.index ⟨8 * ((i 0).val / 512) + 7, hb⟩ 0 * 512 + 512
    rw [(idx5 _).1, ht]; omega
  | ⟨1, _⟩ =>
    show win0_5.index ⟨8 * ((i 0).val / 512) + 7, hb⟩ 1 * 1024 ≤ (i 1).val
      ∧ (i 1).val < win0_5.index ⟨8 * ((i 0).val / 512) + 7, hb⟩ 1 * 1024 + 1024
    rw [(idx5 _).2]; omega

/-- The first output array after the run is the array of new hidden states. -/
theorem final4 (c : Dev nD) : (dats m 0 c).arrAt 4 cfg0.N = resH m c :=
  (dats m 0 c).arrAt_eq_of_cover 4 (resH m c) (flushed4_eq m c) cover4

/-- The second output array after the run is the array of new cell states. -/
theorem final5 (c : Dev nD) : (dats m 0 c).arrAt 5 cfg0.N = resC m c :=
  (dats m 0 c).arrAt_eq_of_cover 5 (resC m c) (flushed5_eq m c) cover5

/-- The run: the two output arrays end holding the new hidden states and the new cell states of the launched
    arguments, and the five arguments are unchanged. -/
theorem run : θ_run defs (onTc (τ := τ) (main (F := Ideal))) ⟨m, fun _ => 0, ρ⟩ fun r => ∀ c : Dev nD,
      r.2.mem ((c : Thread nD τ).loc main_v15_0) = resH m c
      ∧ r.2.mem ((c : Thread nD τ).loc main_v15_1) = resC m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final4 m c), (h c).2.1.trans (final5 m c), (h c).2.2⟩)
    (Cert.KernelIdeal.Value.run_blocks m ρ)

end Cert.KernelIdeal.RunValue

end
-- ==== Proof.RefValue.lean ====
/-
  The reference program computes the quantized LSTM cell of the specification.

  The reference joins the inputs with the hidden states, quantizes the joined array, the weights and the biases
  (each time as: divide by the step `2⁻⁵`, round to nearest with ties to even, clamp to `[-128, 127]`, multiply by the
  step), contracts the quantized joined array with the transposed quantized weights, adds the quantized bias along
  rows, cuts the result into four column bands of width 1024, applies `1 / (1 + e^(-x))` to the first, second and
  fourth band and `tanh` to the third, quantizes each, and combines them with the quantized cell state:
  `c' = Q c · f + i · g`, `h' = Q (tanh c') · o`.

  Read at an index, each of these stages is one function of the stage before it at an index. The quotient by the step
  is the product with `32` on every extended real (`Q_div`), so every quantizing stage is `Q` of its source; the
  spelt-out `1 / (1 + e^(-x))` is the logistic function by definition. The contraction's two operand indices at result
  `(b, n)` and position `k` are `(b, k)` and, through the transposition, `(n, k)`; the bias index is `n`; the bands'
  source columns are `j`, `1024 + j`, `2048 + j`, `3072 + j`. Chaining these gives the two result arrays as the
  specification's `Gc` and `Gh` of the reference's own joined array.
-/
import proofs.«170357_j49331994362494_2_alg».proof.Proof.Gen.ReferenceIdeal.Read
import proofs.«170357_j49331994362494_2_alg».proof.Proof.Spec
import Idealize.ShloMosaic.Lib.IdealHost

noncomputable section

open scoped BigOperators

namespace Cert.ReferenceIdeal.RefValue

open Cert.ReferenceIdeal Cert.ReferenceIdeal.Read Cert.LstmSpec Idealize.ShloMosaic Idealize.ShloMosaic.ValueIdx

/-! ## Quantizing stages -/

/-- The quantized joined input at an index. -/
theorem q_xh (X Hh : FVec Ideal S2048x1024 .f32) (i : S2048x2048.Idx) :
    val_main_v6 (F := Ideal) X Hh i = Q (val_main_v0 (F := Ideal) X Hh i) := by
  rw [val_main_v6_apply, val_main_v4_apply, val_main_call1_v2_apply, val_main_v3_apply, val_main_v2_apply,
    val_main_v5_apply, val_main_cst_2_apply, val_main_call1_v4_apply, val_main_call1_v3_apply, val_main_cst_1_apply,
    val_main_call1_v1_apply, val_main_call1_v0_apply, val_main_cst_0_apply, val_main_v1_apply, val_main_cst_apply]
  simp only [Ideal.hostDivf_def, Ideal.hostUnary_roundeven_def, Ideal.mulf_def, Ideal.ofBits_def, Ideal.maximumf_def,
    Ideal.minimumf_def]
  exact Q_div _

/-- The quantized weights at an index. -/
theorem q_W (W : FVec Ideal S4096x2048 .f32) (i : S4096x2048.Idx) :
    val_main_v12 (F := Ideal) W i = Q (W i) := by
  rw [val_main_v12_apply, val_main_v10_apply, val_main_call3_v2_apply, val_main_v9_apply, val_main_v8_apply,
    val_main_v11_apply, val_main_cst_6_apply, val_main_call3_v4_apply, val_main_call3_v3_apply, val_main_cst_5_apply,
    val_main_call3_v1_apply, val_main_call3_v0_apply, val_main_cst_4_apply, val_main_v7_apply, val_main_cst_3_apply]
  simp only [Ideal.hostDivf_def, Ideal.hostUnary_roundeven_def, Ideal.mulf_def, Ideal.ofBits_def, Ideal.maximumf_def,
    Ideal.minimumf_def]
  exact Q_div _

/-- The quantized biases at an index. -/
theorem q_B (B : FVec Ideal S4096 .f32) (i : S4096.Idx) :
    val_main_v18 (F := Ideal) B i = Q (B i) := by
  rw [val_main_v18_apply, val_main_v16_apply, val_main_call5_v2_apply, val_main_v15_apply, val_main_v14_apply,
    val_main_v17_apply, val_main_cst_10_apply, val_main_call5_v4_apply, val_main_call5_v3_apply, val_main_cst_9_apply,
    val_main_call5_v1_apply, val_main_call5_v0_apply, val_main_cst_8_apply, val_main_v13_apply, val_main_cst_7_apply]
  simp only [Ideal.hostDivf_def, Ideal.hostUnary_roundeven_def, Ideal.mulf_def, Ideal.ofBits_def, Ideal.maximumf_def,
    Ideal.minimumf_def]
  exact Q_div _

/-- The quantized input gate at an index, from its unquantized stage. -/
theorem q_i (X Hh : FVec Ideal S2048x1024 .f32) (W : FVec Ideal S4096x2048 .f32) (B : FVec Ideal S4096 .f32) (i : S2048x1024.Idx) :
    val_main_v39 (F := Ideal) X Hh W B i = Q (val_main_v33 (F := Ideal) X Hh W B i) := by
  rw [val_main_v39_apply, val_main_v37_apply, val_main_call7_v2_apply, val_main_v36_apply, val_main_v35_apply,
    val_main_v38_apply, val_main_cst_16_apply, val_main_call7_v4_apply, val_main_call7_v3_apply, val_main_cst_15_apply,
    val_main_call7_v1_apply, val_main_call7_v0_apply, val_main_cst_14_apply, val_main_v34_apply, val_main_cst_13_apply]
  simp only [Ideal.hostDivf_def, Ideal.hostUnary_roundeven_def, Ideal.mulf_def, Ideal.ofBits_def, Ideal.maximumf_def,
    Ideal.minimumf_def]
  exact Q_div _

/-- The quantized forget gate at an index, from its unquantized stage. -/
theorem q_f (X Hh : FVec Ideal S2048x1024 .f32) (W : FVec Ideal S4096x2048 .f32) (B : FVec Ideal S4096 .f32) (i : S2048x1024.Idx) :
    val_main_v51 (F := Ideal) X Hh W B i = Q (val_main_v45 (F := Ideal) X Hh W B i) := by
  rw [val_main_v51_apply, val_main_v49_apply, val_main_call9_v2_apply, val_main_v48_apply, val_main_v47_apply,
    val_main_v50_apply, val_main_cst_22_apply, val_main_call9_v4_apply, val_main_call9_v3_apply, val_main_cst_21_apply,
    val_main_call9_v1_apply, val_main_call9_v0_apply, val_main_cst_20_apply, val_main_v46_apply, val_main_cst_19_apply]
  simp only [Ideal.hostDivf_def, Ideal.hostUnary_roundeven_def, Ideal.mulf_def, Ideal.ofBits_def, Ideal.maximumf_def,
    Ideal.minimumf_def]
  exact Q_div _

/-- The quantized candidate at an index, from its unquantized stage. -/
theorem q_g (X Hh : FVec Ideal S2048x1024 .f32) (W : FVec Ideal S4096x2048 .f32) (B : FVec Ideal S4096 .f32) (i : S2048x1024.Idx) :
    val_main_v58 (F := Ideal) X Hh W B i = Q (val_main_v52 (F := Ideal) X Hh W B i) := by
  rw [val_main_v58_apply, val_main_v56_apply, val_main_call11_v2_apply, val_main_v55_apply, val_main_v54_apply,
    val_main_v57_apply, val_main_cst_26_apply, val_main_call11_v4_apply, val_main_call11_v3_apply, val_main_cst_25_apply,
    val_main_call11_v1_apply, val_main_call11_v0_apply, val_main_cst_24_apply, val_main_v53_apply, val_main_cst_23_apply]
  simp only [Ideal.hostDivf_def, Ideal.hostUnary_roundeven_def, Ideal.mulf_def, Ideal.ofBits_def, Ideal.maximumf_def,
    Ideal.minimumf_def]
  exact Q_div _

/-- The quantized output gate at an index, from its unquantized stage. -/
theorem q_o (X Hh : FVec Ideal S2048x1024 .f32) (W : FVec Ideal S4096x2048 .f32) (B : FVec Ideal S4096 .f32) (i : S2048x1024.Idx) :
    val_main_v70 (F := Ideal) X Hh W B i = Q (val_main_v64 (F := Ideal) X Hh W B i) := by
  rw [val_main_v70_apply, val_main_v68_apply, val_main_call13_v2_apply, val_main_v67_apply, val_main_v66_apply,
    val_main_v69_apply, val_main_cst_32_apply, val_main_call13_v4_apply, val_main_call13_v3_apply, val_main_cst_31_apply,
    val_main_call13_v1_apply, val_main_call13_v0_apply, val_main_cst_30_apply, val_main_v65_apply, val_main_cst_29_apply]
  simp only [Ideal.hostDivf_def, Ideal.hostUnary_roundeven_def, Ideal.mulf_def, Ideal.ofBits_def, Ideal.maximumf_def,
    Ideal.minimumf_def]
  exact Q_div _

/-- The quantized cell state at an index. -/
theorem q_C (C : FVec Ideal S2048x1024 .f32) (i : S2048x1024.Idx) :
    val_main_v76 (F := Ideal) C i = Q (C i) := by
  rw [val_main_v76_apply, val_main_v74_apply, val_main_call15_v2_apply, val_main_v73_apply, val_main_v72_apply,
    val_main_v75_apply, val_main_cst_36_apply, val_main_call15_v4_apply, val_main_call15_v3_apply, val_main_cst_35_apply,
    val_main_call15_v1_apply, val_main_call15_v0_apply, val_main_cst_34_apply, val_main_v71_apply, val_main_cst_33_apply]
  simp only [Ideal.hostDivf_def, Ideal.hostUnary_roundeven_def, Ideal.mulf_def, Ideal.ofBits_def, Ideal.maximumf_def,
    Ideal.minimumf_def]
  exact Q_div _

/-- The quantized squashed new cell state at an index, from its unquantized stage. -/
theorem q_t (X Hh C : FVec Ideal S2048x1024 .f32) (W : FVec Ideal S4096x2048 .f32) (B : FVec Ideal S4096 .f32) (i : S2048x1024.Idx) :
    val_main_v86 (F := Ideal) X Hh C W B i = Q (val_main_v80 (F := Ideal) X Hh C W B i) := by
  rw [val_main_v86_apply, val_main_v84_apply, val_main_call17_v2_apply, val_main_v83_apply, val_main_v82_apply,
    val_main_v85_apply, val_main_cst_40_apply, val_main_call17_v4_apply, val_main_call17_v3_apply, val_main_cst_39_apply,
    val_main_call17_v1_apply, val_main_call17_v0_apply, val_main_cst_38_apply, val_main_v81_apply, val_main_cst_37_apply]
  simp only [Ideal.hostDivf_def, Ideal.hostUnary_roundeven_def, Ideal.mulf_def, Ideal.ofBits_def, Ideal.maximumf_def,
    Ideal.minimumf_def]
  exact Q_div _

/-! ## The logistic stages -/

/-- The input gate before quantization is the logistic function of its band. -/
theorem sig_i (X Hh : FVec Ideal S2048x1024 .f32) (W : FVec Ideal S4096x2048 .f32) (B : FVec Ideal S4096 .f32) (i : S2048x1024.Idx) :
    val_main_v33 (F := Ideal) X Hh W B i = Ideal.logistic (val_main_v24 (F := Ideal) X Hh W B i) := by
  rw [val_main_v33_apply, val_main_v32_apply, val_main_cst_12_apply, val_main_v31_apply, val_main_v30_apply,
    val_main_cst_11_apply, val_main_v29_apply, val_main_v28_apply]
  simp only [Ideal.hostDivf_def, Ideal.hostUnary_exp_def, Ideal.hostNegf_def, Ideal.negf_def, Ideal.addf_def, Ideal.ofBits_def,
    Ideal.ofBits_one_f32]
  rfl

/-- The forget gate before quantization is the logistic function of its band. -/
theorem sig_f (X Hh : FVec Ideal S2048x1024 .f32) (W : FVec Ideal S4096x2048 .f32) (B : FVec Ideal S4096 .f32) (i : S2048x1024.Idx) :
    val_main_v45 (F := Ideal) X Hh W B i = Ideal.logistic (val_main_v25 (F := Ideal) X Hh W B i) := by
  rw [val_main_v45_apply, val_main_v44_apply, val_main_cst_18_apply, val_main_v43_apply, val_main_v42_apply,
    val_main_cst_17_apply, val_main_v41_apply, val_main_v40_apply]
  simp only [Ideal.hostDivf_def, Ideal.hostUnary_exp_def, Ideal.hostNegf_def, Ideal.negf_def, Ideal.addf_def, Ideal.ofBits_def,
    Ideal.ofBits_one_f32]
  rfl

/-- The output gate before quantization is the logistic function of its band. -/
theorem sig_o (X Hh : FVec Ideal S2048x1024 .f32) (W : FVec Ideal S4096x2048 .f32) (B : FVec Ideal S4096 .f32) (i : S2048x1024.Idx) :
    val_main_v64 (F := Ideal) X Hh W B i = Ideal.logistic (val_main_v27 (F := Ideal) X Hh W B i) := by
  rw [val_main_v64_apply, val_main_v63_apply, val_main_cst_28_apply, val_main_v62_apply, val_main_v61_apply,
    val_main_cst_27_apply, val_main_v60_apply, val_main_v59_apply]
  simp only [Ideal.hostDivf_def, Ideal.hostUnary_exp_def, Ideal.hostNegf_def, Ideal.negf_def, Ideal.addf_def, Ideal.ofBits_def,
    Ideal.ofBits_one_f32]
  rfl

/-! ## The pre-activation -/

/-- The left operand's index of the contraction at result `(b, n)` and position `k` is `(b, k)`. -/
theorem lidx_eq (b : Fin 2048) (n : Fin 4096) (k : Fin 2048) : lidx_main_v20 (ix2 b n) k = ix2 b k :=
  funext fun a => Fin.ext (by match a with | ⟨0, _⟩ => rfl | ⟨1, _⟩ => rfl)

/-- The right operand's index of the contraction, carried through the transposition, is `(n, k)`. -/
theorem ridx_eq (b : Fin 2048) (n : Fin 4096) (k : Fin 2048) : idx_main_v19 (ridx_main_v20 (ix2 b n) k) = ix2 n k :=
  funext fun a => Fin.ext (by match a with | ⟨0, _⟩ => rfl | ⟨1, _⟩ => rfl)

/-- The bias index of the two broadcasts at `(b, n)` is `n`. -/
theorem bidx_eq (b : Fin 2048) (n : Fin 4096) : idx_main_v21 (idx_main_v22 (ix2 b n)) = ix1 n :=
  funext fun a => Fin.ext (by match a with | ⟨0, _⟩ => rfl)

/-- The contraction at `(b, n)` is the specification's. -/
theorem dot_eq (X Hh : FVec Ideal S2048x1024 .f32) (W : FVec Ideal S4096x2048 .f32) (b : Fin 2048) (n : Fin 4096) :
    val_main_v20 (F := Ideal) X Hh W (ix2 b n) = dot (val_main_v0 (F := Ideal) X Hh) W b n := by
  rw [val_main_v20_apply]
  refine Finset.sum_congr rfl fun k _ => ?_
  rw [val_main_v19_apply, lidx_eq, ridx_eq, q_xh, q_W]
  rfl

/-- The pre-activation at `(b, n)` is the specification's. -/
theorem pre_eq (X Hh : FVec Ideal S2048x1024 .f32) (W : FVec Ideal S4096x2048 .f32) (B : FVec Ideal S4096 .f32) (b : Fin 2048) (n : Fin 4096) :
    val_main_v23 (F := Ideal) X Hh W B (ix2 b n) = pre (val_main_v0 (F := Ideal) X Hh) W B b n := by
  rw [val_main_v23_apply, val_main_v22_apply, val_main_v21_apply, bidx_eq, q_B, dot_eq]
  rfl

/-! ## The four bands -/

/-- The first slice reads its operand at `(b, j)`. -/
theorem band0_idx (b : Fin 2048) (j : Fin 1024) :
    idx_main_v24 (ix2 b j) = ix2 b (⟨j.val, by omega⟩ : Fin 4096) :=
  funext fun a => Fin.ext (by match a with | ⟨0, _⟩ => rfl | ⟨1, _⟩ => rfl)

/-- Column `j` of the first band is column `j` of the pre-activation. -/
theorem band0 (X Hh : FVec Ideal S2048x1024 .f32) (W : FVec Ideal S4096x2048 .f32) (B : FVec Ideal S4096 .f32) (b : Fin 2048) (j : Fin 1024) :
    val_main_v24 (F := Ideal) X Hh W B (ix2 b j) = pre (val_main_v0 (F := Ideal) X Hh) W B b ⟨j.val, by omega⟩ := by
  rw [val_main_v24_apply, band0_idx, pre_eq]

/-- The second slice reads its operand at `(b, 1024 + j)`. -/
theorem band1_idx (b : Fin 2048) (j : Fin 1024) :
    idx_main_v25 (ix2 b j) = ix2 b (⟨1024 + j.val, by omega⟩ : Fin 4096) :=
  funext fun a => Fin.ext (by match a with | ⟨0, _⟩ => rfl | ⟨1, _⟩ => rfl)

/-- Column `j` of the second band is column `1024 + j` of the pre-activation. -/
theorem band1 (X Hh : FVec Ideal S2048x1024 .f32) (W : FVec Ideal S4096x2048 .f32) (B : FVec Ideal S4096 .f32) (b : Fin 2048) (j : Fin 1024) :
    val_main_v25 (F := Ideal) X Hh W B (ix2 b j) = pre (val_main_v0 (F := Ideal) X Hh) W B b ⟨1024 + j.val, by omega⟩ := by
  rw [val_main_v25_apply, band1_idx, pre_eq]

/-- The third slice reads its operand at `(b, 2048 + j)`. -/
theorem band2_idx (b : Fin 2048) (j : Fin 1024) :
    idx_main_v26 (ix2 b j) = ix2 b (⟨2048 + j.val, by omega⟩ : Fin 4096) :=
  funext fun a => Fin.ext (by match a with | ⟨0, _⟩ => rfl | ⟨1, _⟩ => rfl)

/-- Column `j` of the third band is column `2048 + j` of the pre-activation. -/
theorem band2 (X Hh : FVec Ideal S2048x1024 .f32) (W : FVec Ideal S4096x2048 .f32) (B : FVec Ideal S4096 .f32) (b : Fin 2048) (j : Fin 1024) :
    val_main_v26 (F := Ideal) X Hh W B (ix2 b j) = pre (val_main_v0 (F := Ideal) X Hh) W B b ⟨2048 + j.val, by omega⟩ := by
  rw [val_main_v26_apply, band2_idx, pre_eq]

/-- The fourth slice reads its operand at `(b, 3072 + j)`. -/
theorem band3_idx (b : Fin 2048) (j : Fin 1024) :
    idx_main_v27 (ix2 b j) = ix2 b (⟨3072 + j.val, by omega⟩ : Fin 4096) :=
  funext fun a => Fin.ext (by match a with | ⟨0, _⟩ => rfl | ⟨1, _⟩ => rfl)

/-- Column `j` of the fourth band is column `3072 + j` of the pre-activation. -/
theorem band3 (X Hh : FVec Ideal S2048x1024 .f32) (W : FVec Ideal S4096x2048 .f32) (B : FVec Ideal S4096 .f32) (b : Fin 2048) (j : Fin 1024) :
    val_main_v27 (F := Ideal) X Hh W B (ix2 b j) = pre (val_main_v0 (F := Ideal) X Hh) W B b ⟨3072 + j.val, by omega⟩ := by
  rw [val_main_v27_apply, band3_idx, pre_eq]

/-! ## The cell -/

/-- The new cell state at `(b, j)` is the specification's. -/
theorem cnew_eq (X Hh C : FVec Ideal S2048x1024 .f32) (W : FVec Ideal S4096x2048 .f32) (B : FVec Ideal S4096 .f32) (b : Fin 2048) (j : Fin 1024) :
    val_main_v79 (F := Ideal) X Hh C W B (ix2 b j) = cnew (val_main_v0 (F := Ideal) X Hh) W B C b j := by
  rw [val_main_v79_apply, val_main_v77_apply, val_main_v78_apply, q_C, q_f, sig_f, band1, q_i, sig_i, band0, q_g,
    val_main_v52_apply, band2]
  simp only [Ideal.addf_def, Ideal.mulf_def, Ideal.hostUnary_tanh_def]
  rfl

/-- The new hidden state at `(b, j)` is the specification's. -/
theorem hnew_eq (X Hh C : FVec Ideal S2048x1024 .f32) (W : FVec Ideal S4096x2048 .f32) (B : FVec Ideal S4096 .f32) (b : Fin 2048) (j : Fin 1024) :
    val_main_v87 (F := Ideal) X Hh C W B (ix2 b j) = hnew (val_main_v0 (F := Ideal) X Hh) W B C b j := by
  rw [val_main_v87_apply, q_t, val_main_v80_apply, cnew_eq, q_o, sig_o, band3]
  simp only [Ideal.mulf_def, Ideal.hostUnary_tanh_def]
  rfl

/-- The reference's new cell states are the specification's array. -/
theorem ref_c (X Hh C : FVec Ideal S2048x1024 .f32) (W : FVec Ideal S4096x2048 .f32) (B : FVec Ideal S4096 .f32) :
    val_main_v79 (F := Ideal) X Hh C W B = Gc (val_main_v0 (F := Ideal) X Hh) W B C := by
  funext i
  obtain ⟨b, j, rfl⟩ : ∃ (b : Fin 2048) (j : Fin 1024), i = ix2 b j := ⟨i 0, i 1, eq_ix2 i⟩
  exact cnew_eq X Hh C W B b j

/-- The reference's new hidden states are the specification's array. -/
theorem ref_h (X Hh C : FVec Ideal S2048x1024 .f32) (W : FVec Ideal S4096x2048 .f32) (B : FVec Ideal S4096 .f32) :
    val_main_v87 (F := Ideal) X Hh C W B = Gh (val_main_v0 (F := Ideal) X Hh) W B C := by
  funext i
  obtain ⟨b, j, rfl⟩ : ∃ (b : Fin 2048) (j : Fin 1024), i = ix2 b j := ⟨i 0, i 1, eq_ix2 i⟩
  exact hnew_eq X Hh C W B b j

end Cert.ReferenceIdeal.RefValue

end
-- ==== Proof.lean ====
/-
  A quantized LSTM cell, computed two ways, gives the same extended reals.

  Both programs take inputs `X`, hidden states `h` and cell states `c` (each `[2048, 1024]`), weights `[4096, 2048]`
  and biases `[4096]`, pass every value through the fixed-point quantizer `Q x = clamp (round (32 · x)) · 2⁻⁵`, form
  the pre-activations `Q (X ‖ h) · Q (W)ᵀ + Q (b)`, split them into the input, forget, candidate and output gates, and
  return `h' = Q (tanh c') · Q (σ o)` and `c' = Q (c) · Q (σ f) + Q (σ i) · Q (tanh g)`.

  The reference is one straight line of array operations; it spells the quantizer's scaling as a quotient by `2⁻⁵`
  and the sigmoid as `1 / (1 + e⁻ˣ)`, and contracts all 2048 positions at once. The kernel quantizes the two matrix
  operands before the grid, spells the scaling as a product with `32` and the sigmoid as one operation, walks a
  `4 × 8` grid accumulating the contraction 256 positions at a time in a buffer it carries between points, and at the
  last point of each row block computes the gates and both results 256 columns at a time.

  Over the extended reals the two agree entry by entry: dividing by `2⁻⁵` is multiplying by `32` on every extended
  real; the sigmoid is that expression by definition; a sum of 2048 terms is the sum of its eight stretches of 256,
  by associativity and commutativity alone, so no finiteness of the inputs is used. Both sides are shown equal to
  ONE function of the arguments (`Cert.LstmSpec.Gh`, `Gc`): the reference by reading its operations at an index, the
  kernel by following what each grid point leaves in the accumulator and in the two output blocks and then reading
  the result arrays block by block. The three frames are the generated runs; the idealization rewrote nothing.
-/
import proofs.«170357_j49331994362494_2_alg».proof.Defs
import proofs.«170357_j49331994362494_2_alg».proof.Proof.Gen.Kernel
import proofs.«170357_j49331994362494_2_alg».proof.Proof.Gen.Kernel.Frame
import proofs.«170357_j49331994362494_2_alg».proof.Proof.Gen.KernelIdeal
import proofs.«170357_j49331994362494_2_alg».proof.Proof.Gen.KernelIdeal.Frame
import proofs.«170357_j49331994362494_2_alg».proof.Proof.Gen.KernelIdeal.Value
import proofs.«170357_j49331994362494_2_alg».proof.Proof.Gen.ReferenceIdeal
import proofs.«170357_j49331994362494_2_alg».proof.Proof.Gen.ReferenceIdeal.Run
import proofs.«170357_j49331994362494_2_alg».proof.Proof.Gen.ReferenceIdeal.Read
import proofs.«170357_j49331994362494_2_alg».proof.Proof.Gen.Pre_finite_inputs
import proofs.«170357_j49331994362494_2_alg».proof.Proof.KernelValue
import proofs.«170357_j49331994362494_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and leaves its arguments as they were: its run, with the two results forgotten. -/
theorem frame_ri : Cert.frame_ReferenceIdeal := fun m ρ _ =>
  (θ_run Cert.ReferenceIdeal.defs _ _).mono (fun _ h c => (h c).2.2) (Cert.ReferenceIdeal.Value.run (F := Ideal) m ρ)

/-- The kernel's result arrays end at the cell function of its arguments, and the reference's at the same function of
    arguments that agree: the joined inputs are one array on both sides. -/
theorem algebraic : Cert.algebraic_KernelIdeal_ReferenceIdeal := by
  intro m ρ m' ρ' _ hagree
  refine ⟨fun c => Cert.KernelIdeal.RunValue.resH m c, fun c => Cert.KernelIdeal.RunValue.resC m c,
    Cert.KernelIdeal.RunValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v87_eq, Cert.ReferenceIdeal.RefValue.ref_h,
      (hagree c).1, (hagree c).2.1, (hagree c).2.2.1, (hagree c).2.2.2.1, (hagree c).2.2.2.2]
    rfl
  · rw [(h c).2.1, Cert.ReferenceIdeal.Read.val_main_v79_eq, Cert.ReferenceIdeal.RefValue.ref_c,
      (hagree c).1, (hagree c).2.1, (hagree c).2.2.1, (hagree c).2.2.2.1, (hagree c).2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
